-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S1024x256 : Shape := ⟨2, ![1024, 256]⟩
abbrev S4096x256 : Shape := ⟨2, ![4096, 256]⟩
abbrev S1024x4096 : Shape := ⟨2, ![1024, 4096]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .bf16⟩
  | .local _ .vmem, ⟨5, _⟩ => ⟨S512x4096, .bf16⟩
  | .local _ .vmem, ⟨6, _⟩ => ⟨S1024x256, .f32⟩
  | .local _ .vmem, ⟨7, _⟩ => ⟨S1024x256, .f32⟩
  | .local _ .vmem, ⟨8, _⟩ => ⟨S4096x256, .bf16⟩
  | .local _ .vmem, ⟨9, _⟩ => ⟨S4096x256, .bf16⟩
  | .local _ .vmem, ⟨10, _⟩ => ⟨S1x4096, .f32⟩
  | .local _ .vmem, ⟨11, _⟩ => ⟨S1024x4096, .f32⟩
  | .local _ .vmem, ⟨12, _⟩ => ⟨S1024x4096, .f32⟩
  | .local _ .vmem, ⟨13, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 1, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S8192x4096.size a
  hwx1_3 : ∀ i : grid1.Coords, EltTy.bits .f32 = 32 ∨ (Rect.block (s := S8192x4096) S1024x4096.size (cc1_transform_3 i) (hinb1_3 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.FrameBits.Region0.lean ====
/-
  The first kernel region: the elementwise product of the weight and the mask, rounded to bf16, over a
  grid of 8 row blocks of 512 rows. At a parameter `V` (what the core's buffers hold when the region is
  entered) this module states what each window's staging buffer holds after the body at a grid point
  (both inputs their blocks, the output the product of the two input blocks, written by one store that
  covers the block), the body's triple, and the body obligation of the pipeline at every point.
  Everything is stated for an arbitrary float instance `F`.
-/
import proofs.«174054_j19868518711680_2_alg».proof.Proof.Gen.Kernel.Launch
import proofs.«174054_j19868518711680_2_alg».proof.Proof.Gen.Kernel.Skeleton
import proofs.«174054_j19868518711680_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's staging buffer holds the mask's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×4096 block as a rectangle: what every load and the store of the body address. -/
abbrev rW : Rect S512x4096 := Rect.unit (s := S512x4096) ![0, 0] S512x4096.size inb_S512x4096_S512x4096_0_0

/-- What the body leaves in the output window's buffer: its one store, of the rounded product of the two
    input blocks, read back. -/
def prodBlock (x0 x1 : Vec F S512x4096 .f32) : Vec F S512x4096 .bf16 :=
  View.canon [⟨rW, k0_pay1 (View.ld x0 rW) (View.ld x1 rW)⟩]

/-- That one store covers the block. -/
theorem prodBlock_cover (p0 : Vec F S512x4096 .bf16) (y : S512x4096.Idx) :
    ∃ pc ∈ ([⟨rW, p0⟩] : List (View.Piece (Elt F) S512x4096 .bf16)), y ∈ pc.1.set :=
  View.cover_of_tiled [⟨rW, p0⟩] S512x4096.size (by rfl) y

set_option maxHeartbeats 1000000 in
/-- The body on whole staging memrefs, the inputs' at `x0`, `x1` and the output's at anything, runs to the
    continuation holding the inputs as they were and the output at `prodBlock x0 x1`. -/
theorem sound_kernel0 (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S512x4096 .bf16) (harg3 : arg3.IsWhole)
    (x0 x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc0__mask_weight_kernel i arg1 harg1 arg2 harg2 arg3 harg3) K := by
  simp only [cc0__mask_weight_kernel_eq_skeleton]; unfold cc0__mask_weight_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodBlock_cover _)

/-- The proof data of the first pipeline on core `c`: the arrays as the region finds them; after the body at
    point `t` each input's buffer at its block and the output's at the product of the two; the invariant the
    scoped buffers the pipeline does not stage and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = prodBlock (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.MM

end
-- ==== Proof.FrameBits.Region1Runs.lean ====
/-
  The second kernel region, first half: the matrix product accumulated over the contracted axis. The grid
  is 8 × 1 × 16; at the point with coordinates (i, 0, k) the body adds the product of the k-th block of 256
  columns of 1024 rows of the left operand with the k-th block of 256 columns of the right one into a
  1024 × 4096 accumulator kept in a scratch buffer, which it zeroes first when k = 0, and when k = 15 it
  stores the accumulator plus the bias row into the output block. This module states the two branch
  conditions in closed form over the grid, where the output window is idle, and the body's run in each of
  the three cases the grid meets (first step, middle step, last step of a row block): on whole staging
  memrefs the body runs to its continuation with the scratch (and, in the last case, the output buffer)
  holding the contents it was given with a list of pieces written over them; the lists are found by
  running the body. Everything is stated for an arbitrary float instance `F`.
-/
import proofs.«174054_j19868518711680_2_alg».proof.Proof.Gen.Kernel.Launch
import proofs.«174054_j19868518711680_2_alg».proof.Proof.Gen.Kernel.Skeleton
import proofs.«174054_j19868518711680_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The condition of the body's first branch (zero the accumulator): the last grid coordinate is 0. -/
abbrev condFirst (i : grid1.Coords) : Prop :=
  (Scalar.cmpi .ne (Scalar.extui (Scalar.cmpi .eq (BitVec.ofNat 32 (i 2).val) 0#32)) 0#32) = 1#1
/-- It holds at the points ≡ 0 (mod 16). -/
theorem hcondFirst : ∀ t : Fin cfg1.N, condFirst (grid1.coords t) ↔ t.val % 16 = 0 :=
  (by decide +kernel : ∀ t : Fin grid1.N, condFirst (grid1.coords t) ↔ t.val % 16 = 0)

/-- The condition of the body's second branch (emit the output block): the last grid coordinate is 15. -/
abbrev condLast (i : grid1.Coords) : Prop := k1_cond2 i = 1#1
/-- It holds at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last step of a row block the output window is idle and is not written back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- At the last step it is live. -/
theorem live1_3 : ∀ t : Fin cfg1.N, condLast (grid1.coords t) → cfg1.idle 3 (grid1.coords t) = false := by decide +kernel

/-! ## The body's run, case by case -/

set_option maxHeartbeats 4000000 in
/-- FIRST STEP (k = 0): the scratch may hold anything; the body zeroes it and adds the first product. The
    bias block and the output buffer are handed back untouched. -/
noncomputable def runFirst (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole)
    (hcF : condFirst i) (hcL : ¬condLast i)
    (x0 : Vec F S1024x256 .f32) (x1 : Vec F S4096x256 .bf16) :
    { LS : List (View.Piece (Elt F) S1024x4096 .f32) //
      ∀ (x2 : Vec F S1x4096 .f32) (xi : Vec F S1024x4096 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__masked_matmul_kernel i arg3 harg3 arg4 harg4 arg5 harg5 arg6 harg6 arg7 harg7) K } := by
  refine ⟨?_, fun x2 xi E K => ?run⟩
  case run =>
    simp only [cc1__masked_matmul_kernel_eq_skeleton]; unfold cc1__masked_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1
    obtain rfl := harg5.eq_unread hf2; obtain rfl := harg6.eq_unread hf3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- MIDDLE STEP (0 < k < 15): the scratch holds what the step before left (`xs`); the body adds one more
    product. The bias block and the output buffer are handed back untouched. -/
noncomputable def runMid (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole)
    (hcF : ¬condFirst i) (hcL : ¬condLast i)
    (x0 : Vec F S1024x256 .f32) (x1 : Vec F S4096x256 .bf16) (xs : Vec F S1024x4096 .f32) :
    { LS : List (View.Piece (Elt F) S1024x4096 .f32) //
      ∀ (x2 : Vec F S1x4096 .f32) (xi : Vec F S1024x4096 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__masked_matmul_kernel i arg3 harg3 arg4 harg4 arg5 harg5 arg6 harg6 arg7 harg7) K } := by
  refine ⟨?_, fun x2 xi E K => ?run⟩
  case run =>
    simp only [cc1__masked_matmul_kernel_eq_skeleton]; unfold cc1__masked_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1
    obtain rfl := harg5.eq_unread hf2; obtain rfl := harg6.eq_unread hf3; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- LAST STEP (k = 15): the scratch holds what the step before left; the body adds the last product and
    stores the accumulator plus the bias row into the output buffer, which may hold anything before. -/
noncomputable def runLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole)
    (hcF : ¬condFirst i) (hcL : condLast i)
    (x0 : Vec F S1024x256 .f32) (x1 : Vec F S4096x256 .bf16) (x2 : Vec F S1x4096 .f32) (xs : Vec F S1024x4096 .f32) :
    Σ' (LO : List (View.Piece (Elt F) S1024x4096 .f32)), { LS : List (View.Piece (Elt F) S1024x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__masked_matmul_kernel i arg3 harg3 arg4 harg4 arg5 harg5 arg6 harg6 arg7 harg7) K } := by
  refine ⟨?_, ?_, fun E K => ?run⟩
  case run =>
    simp only [cc1__masked_matmul_kernel_eq_skeleton]; unfold cc1__masked_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1
    obtain rfl := harg5.eq_unread hf2; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.MM

end
-- ==== Proof.FrameBits.Region1.lean ====
/-
  The second kernel region, second half. From the body's three runs: what each case leaves in the scratch
  accumulator and in the output buffer (its pieces read back; they cover the buffer), the accumulator after
  every grid point by recursion on the point — restarted at the first step of each row block, extended by
  one product at every other step —, the output block the last step of a row block emits, the region
  invariant (the scratch at the accumulator the point before left, the other scoped buffers and the
  generator register at anything), the pipeline's proof data and its body obligation at every point.
  Everything is stated for an arbitrary float instance `F`, at a parameter `V`: what the core's buffers
  hold when the region is entered.
-/
import proofs.«174054_j19868518711680_2_alg».proof.Proof.FrameBits.Region1Runs

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs at a point, the scratch, and two views to state contents through -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x4096 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM : Memref sig .tc .vmem S1024x4096 .f32 := Memref.whole cc1_scratch0
abbrev VS : View sig .tc .vmem S1024x4096 .f32 := scM.view
abbrev VO : View sig .tc .vmem S1024x4096 .f32 := (Memref.whole cc1_stg3_0 : Memref sig .tc .vmem S1024x4096 .f32).view

/-! ## What each case leaves -/

theorem scoverFirst (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : condFirst i) (hcL : ¬condLast i)
    (x0 : Vec F S1024x256 .f32) (x1 : Vec F S4096x256 .bf16) (y : S1024x4096.Idx) :
    ∃ pc ∈ (runFirst c i arg3 harg3 arg4 harg4 arg5 harg5 arg6 harg6 arg7 harg7 hcF hcL x0 x1).1, y ∈ pc.1.set :=
  View.cover_of_tiledL (runFirst c i arg3 harg3 arg4 harg4 arg5 harg5 arg6 harg6 arg7 harg7 hcF hcL x0 x1).1 S1024x4096.size (by sl_kernel_rfl) y

/-- The accumulator after a first step. -/
def soutFirst (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : condFirst i) (hcL : ¬condLast i)
    (x0 : Vec F S1024x256 .f32) (x1 : Vec F S4096x256 .bf16) : Vec F S1024x4096 .f32 :=
  VS.read (Elt F) (VS.writes (Elt F) VS.junk (runFirst c i arg3 harg3 arg4 harg4 arg5 harg5 arg6 harg6 arg7 harg7 hcF hcL x0 x1).1)

theorem scoverMid (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : ¬condLast i)
    (x0 : Vec F S1024x256 .f32) (x1 : Vec F S4096x256 .bf16) (xs : Vec F S1024x4096 .f32) (y : S1024x4096.Idx) :
    ∃ pc ∈ (runMid c i arg3 harg3 arg4 harg4 arg5 harg5 arg6 harg6 arg7 harg7 hcF hcL x0 x1 xs).1, y ∈ pc.1.set :=
  View.cover_of_tiledL (runMid c i arg3 harg3 arg4 harg4 arg5 harg5 arg6 harg6 arg7 harg7 hcF hcL x0 x1 xs).1 S1024x4096.size (by sl_kernel_rfl) y

/-- The accumulator after a middle step, from the one before it. -/
def soutMid (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : ¬condLast i)
    (x0 : Vec F S1024x256 .f32) (x1 : Vec F S4096x256 .bf16) (xs : Vec F S1024x4096 .f32) : Vec F S1024x4096 .f32 :=
  VS.read (Elt F) (VS.writes (Elt F) VS.junk (runMid c i arg3 harg3 arg4 harg4 arg5 harg5 arg6 harg6 arg7 harg7 hcF hcL x0 x1 xs).1)

theorem scoverLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) (y : S1024x4096.Idx) :
    ∃ pc ∈ (runLast c i arg3 harg3 arg4 harg4 arg5 harg5 arg6 harg6 arg7 harg7 hcF hcL x0 x1 x2 xs).2.1, y ∈ pc.1.set :=
  View.cover_of_tiledL (runLast c i arg3 harg3 arg4 harg4 arg5 harg5 arg6 harg6 arg7 harg7 hcF hcL x0 x1 x2 xs).2.1 S1024x4096.size (by sl_kernel_rfl) y

/-- The accumulator after a last step, from the one before it. -/
def soutLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) : Vec F S1024x4096 .f32 :=
  VS.read (Elt F) (VS.writes (Elt F) VS.junk (runLast c i arg3 harg3 arg4 harg4 arg5 harg5 arg6 harg6 arg7 harg7 hcF hcL x0 x1 x2 xs).2.1)

theorem ocoverLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) (y : S1024x4096.Idx) :
    ∃ pc ∈ (runLast c i arg3 harg3 arg4 harg4 arg5 harg5 arg6 harg6 arg7 harg7 hcF hcL x0 x1 x2 xs).1, y ∈ pc.1.set :=
  View.cover_of_tiledL (runLast c i arg3 harg3 arg4 harg4 arg5 harg5 arg6 harg6 arg7 harg7 hcF hcL x0 x1 x2 xs).1 S1024x4096.size (by sl_kernel_rfl) y

/-- The output block a last step emits. -/
def outLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) : Vec F S1024x4096 .f32 :=
  VO.read (Elt F) (VO.writes (Elt F) VO.junk (runLast c i arg3 harg3 arg4 harg4 arg5 harg5 arg6 harg6 arg7 harg7 hcF hcL x0 x1 x2 xs).1)

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window is fetched at the first point only; its block index never moves, so it holds the bias row at
    every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- THE ACCUMULATOR after the body at position `n`: at the first step of a row block the first product over
    zero; at every other step the step's product added to what the point before left. -/
def accAt (c : Dev nD) : (n : ℕ) → n < cfg1.N → Vec F S1024x4096 .f32
  | 0, hn => soutFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) ((hcondFirst ⟨0, hn⟩).mpr (Nat.zero_mod _))
      (fun h => (fun h => by (try dsimp only at h); omega) ((hcondLast ⟨0, hn⟩).mp h)) (iblk1 V c 0 ⟨0, hn⟩) (iblk1 V c 1 ⟨0, hn⟩)
  | n + 1, hn =>
    if h0 : (n + 1) % 16 = 0 then
      soutFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) ((hcondFirst ⟨n + 1, hn⟩).mpr h0)
        (fun h => (fun h => by (try dsimp only at h); omega) ((hcondLast ⟨n + 1, hn⟩).mp h)) (iblk1 V c 0 ⟨n + 1, hn⟩) (iblk1 V c 1 ⟨n + 1, hn⟩)
    else if h2 : (n + 1) % 16 = 15 then
      soutLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcondFirst ⟨n + 1, hn⟩).mp h)) ((hcondLast ⟨n + 1, hn⟩).mpr h2)
        (iblk1 V c 0 ⟨n + 1, hn⟩) (iblk1 V c 1 ⟨n + 1, hn⟩) (iblk1 V c 2 ⟨n + 1, hn⟩) (accAt c n (Nat.lt_of_succ_lt hn))
    else
      soutMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcondFirst ⟨n + 1, hn⟩).mp h)) (fun h => h2 ((hcondLast ⟨n + 1, hn⟩).mp h))
        (iblk1 V c 0 ⟨n + 1, hn⟩) (iblk1 V c 1 ⟨n + 1, hn⟩) (accAt c n (Nat.lt_of_succ_lt hn))

theorem accAt_first (c : Dev nD) (t : Fin cfg1.N) (h0 : t.val % 16 = 0) (h2 : ¬t.val % 16 = 15) :
    accAt V c t.val t.isLt = soutFirst c (grid1.coords t) (ms1_0 t) (hs1_0 t) (ms1_1 t) (hs1_1 t) (ms1_2 t) (hs1_2 t) (ms1_3 t) (hs1_3 t) scM (Memref.isWhole_whole _) ((hcondFirst t).mpr h0) (fun h => h2 ((hcondLast t).mp h))
      (iblk1 V c 0 t) (iblk1 V c 1 t) := by
  obtain ⟨n, hn⟩ := t
  cases n with
  | zero => exact rfl
  | succ n => exact (dif_pos h0).trans rfl

theorem accAt_mid (c : Dev nD) (t : Fin cfg1.N) (h0 : ¬t.val % 16 = 0) (h2 : ¬t.val % 16 = 15) :
    accAt V c t.val t.isLt = soutMid c (grid1.coords t) (ms1_0 t) (hs1_0 t) (ms1_1 t) (hs1_1 t) (ms1_2 t) (hs1_2 t) (ms1_3 t) (hs1_3 t) scM (Memref.isWhole_whole _) (fun h => h0 ((hcondFirst t).mp h)) (fun h => h2 ((hcondLast t).mp h))
      (iblk1 V c 0 t) (iblk1 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)

theorem accAt_last (c : Dev nD) (t : Fin cfg1.N) (h0 : ¬t.val % 16 = 0) (h2 : t.val % 16 = 15) :
    accAt V c t.val t.isLt = soutLast c (grid1.coords t) (ms1_0 t) (hs1_0 t) (ms1_1 t) (hs1_1 t) (ms1_2 t) (hs1_2 t) (ms1_3 t) (hs1_3 t) scM (Memref.isWhole_whole _) (fun h => h0 ((hcondFirst t).mp h)) ((hcondLast t).mpr h2)
      (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- THE OUTPUT BLOCK after the body at point `t`: at the last step of a row block the accumulator plus the bias
    row; elsewhere the window is idle and this value is never consulted. -/
def emitAt (c : Dev nD) (t : Fin cfg1.N) : Vec F S1024x4096 .f32 :=
  if h2 : t.val % 16 = 15 then
    outLast c (grid1.coords t) (ms1_0 t) (hs1_0 t) (ms1_1 t) (hs1_1 t) (ms1_2 t) (hs1_2 t) (ms1_3 t) (hs1_3 t) scM (Memref.isWhole_whole _) (fun h => (fun h => by omega) ((hcondFirst t).mp h)) ((hcondLast t).mpr h2)
      (iblk1 V c 0 t) (iblk1 V c 1 t) (iblk1 V c 2 t) (accAt V c (t.val - 1) (Nat.lt_of_le_of_lt (Nat.sub_le _ _) t.isLt))
  else k1_pay1

theorem emitAt_last (c : Dev nD) (t : Fin cfg1.N) (h0 : ¬t.val % 16 = 0) (h2 : t.val % 16 = 15) :
    emitAt V c t = outLast c (grid1.coords t) (ms1_0 t) (hs1_0 t) (ms1_1 t) (hs1_1 t) (ms1_2 t) (hs1_2 t) (ms1_3 t) (hs1_3 t) scM (Memref.isWhole_whole _) (fun h => h0 ((hcondFirst t).mp h)) ((hcondLast t).mpr h2)
      (iblk1 V c 0 t) (iblk1 V c 1 t) (iblk1 V c 2 t) (accAt V c (t.val - 1) (Nat.lt_of_le_of_lt (Nat.sub_le _ _) t.isLt)) :=
  (dif_pos h2).trans rfl

/-! ## The region invariant -/

/-- A scoped buffer at some contents. -/
def heldB (c : Dev nD) (b : Ref sig .tc) : sProp 𝕄 :=
  iprop(∃ f : Buf (Elt F) ((c : Thread nD τ).loc b), ((c : Thread nD τ).loc b) ↦{fullShare} f)

/-- What the region hands the kernel beside the windows: the first pipeline's six staging buffers and the
    accumulator, each at some contents, and the generator register. -/
theorem PhiA1_eq (c : Dev nD) :
    (Pipeline.ΦA spec1 c : sProp 𝕄)
      = iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ (∃ d, owns (c : Thread nD τ) scM fullShare d)) ∗ (∃ r, prngReg c r)) := by
  unfold Pipeline.ΦA heldB; rw [scopedRest1_eq]; simp only [scM, owns_whole]; try rfl

/-- The invariant before position `n`: before the first point, that; afterwards the same with the accumulator at
    what the point before left. -/
def PhiS (c : Dev nD) : (n : ℕ) → n ≤ cfg1.N → sProp 𝕄
  | 0, _ => Pipeline.ΦA spec1 c
  | n + 1, hn => iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ owns (c : Thread nD τ) scM fullShare (accAt V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => emitAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = emitAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms say which case the point is in; the invariant hands the body the
    accumulator at what the point before left (at anything at the very first point), and takes it back at this
    point's; an idle output buffer passes through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 16 = 0
  · have h2 : ¬t.val % 16 = 15 := by omega
    have hcF : condFirst (grid1.coords t) := (hcondFirst t).mpr h0
    have hcL : ¬condLast (grid1.coords t) := fun h => h2 ((hcondLast t).mp h)
    rw [show (dat1 V c).leavesExact 0 t = owns (c : Thread nD τ) (ms1_0 t) fullShare ((dat1 V c).after 0 t) from (by unfold Dat.leavesExact; rw [live1_0 t]), after1_0]
    rw [show (dat1 V c).leavesExact 1 t = owns (c : Thread nD τ) (ms1_1 t) fullShare ((dat1 V c).after 1 t) from (by unfold Dat.leavesExact; rw [live1_1 t]), after1_1]
    rw [show (dat1 V c).leavesExact 2 t = owns (c : Thread nD τ) (ms1_2 t) fullShare ((dat1 V c).after 2 t) from (by unfold Dat.leavesExact; rw [live1_2 t]), after1_2]
    rw [Dat.leavesExact_idle (dat1 V c) 3 t (idle1_3 t hcL) (noFlush1_3 t hcL)]
    rw [accAt_first V c t h0 h2]
    unfold soutFirst; (try dsimp only)
    by_cases hz : t.val = 0
    ·
      rw [PhiS_castSucc V c t, PhiS_zero V c _ _ hz, PhiA1_eq]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) _ _ _ _ _ _ _ _ _ _ hcF hcL (iblk1 V c 0 t) (iblk1 V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverFirst c _ _ _ _ _ _ _ _ _ _ _ _ _ _ _)
        · iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) _ _ _ _ _ _ _ _ _ _ hcF hcL (iblk1 V c 0 t) (iblk1 V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverFirst c _ _ _ _ _ _ _ _ _ _ _ _ _ _ _)
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    have hcF : ¬condFirst (grid1.coords t) := fun h => h0 ((hcondFirst t).mp h)
    by_cases h2 : t.val % 16 = 15
    · have hcL : condLast (grid1.coords t) := (hcondLast t).mpr h2
      rw [show (dat1 V c).leavesExact 0 t = owns (c : Thread nD τ) (ms1_0 t) fullShare ((dat1 V c).after 0 t) from (by unfold Dat.leavesExact; rw [live1_0 t]), after1_0]
      rw [show (dat1 V c).leavesExact 1 t = owns (c : Thread nD τ) (ms1_1 t) fullShare ((dat1 V c).after 1 t) from (by unfold Dat.leavesExact; rw [live1_1 t]), after1_1]
      rw [show (dat1 V c).leavesExact 2 t = owns (c : Thread nD τ) (ms1_2 t) fullShare ((dat1 V c).after 2 t) from (by unfold Dat.leavesExact; rw [live1_2 t]), after1_2]
      rw [show (dat1 V c).leavesExact 3 t = owns (c : Thread nD τ) (ms1_3 t) fullShare ((dat1 V c).after 3 t) from (by unfold Dat.leavesExact; rw [live1_3 t hcL]), after1_3]
      rw [accAt_last V c t h0 h2, emitAt_last V c t h0 h2]
      unfold soutLast outLast; (try dsimp only)
      rw [PhiS_castSucc V c t, PhiS_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runLast c (grid1.coords t) _ _ _ _ _ _ _ _ _ _ hcF hcL (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverLast c _ _ _ _ _ _ _ _ _ _ _ _ _ _ _ _ _)
        · iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverLast c _ _ _ _ _ _ _ _ _ _ _ _ _ _ _ _ _)
    · have hcL : ¬condLast (grid1.coords t) := fun h => h2 ((hcondLast t).mp h)
      rw [show (dat1 V c).leavesExact 0 t = owns (c : Thread nD τ) (ms1_0 t) fullShare ((dat1 V c).after 0 t) from (by unfold Dat.leavesExact; rw [live1_0 t]), after1_0]
      rw [show (dat1 V c).leavesExact 1 t = owns (c : Thread nD τ) (ms1_1 t) fullShare ((dat1 V c).after 1 t) from (by unfold Dat.leavesExact; rw [live1_1 t]), after1_1]
      rw [show (dat1 V c).leavesExact 2 t = owns (c : Thread nD τ) (ms1_2 t) fullShare ((dat1 V c).after 2 t) from (by unfold Dat.leavesExact; rw [live1_2 t]), after1_2]
      rw [Dat.leavesExact_idle (dat1 V c) 3 t (idle1_3 t hcL) (noFlush1_3 t hcL)]
      rw [accAt_mid V c t h0 h2]
      unfold soutMid; (try dsimp only)
      rw [PhiS_castSucc V c t, PhiS_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runMid c (grid1.coords t) _ _ _ _ _ _ _ _ _ _ hcF hcL (iblk1 V c 0 t) (iblk1 V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverMid c _ _ _ _ _ _ _ _ _ _ _ _ _ _ _ _)
        · iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨Ha, Hb, Hc, Hd, He, Hf, HS⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists _; iexact HS
  · iexact Hg

end Region1

end Cert.Kernel.MM

end
-- ==== Proof.FrameBits.Run.lean ====
/-
  The whole program as a run: @main is the first kernel region (the masked weight), one host operation (the
  bias reshaped to a row), and the second kernel region (the accumulated matrix product plus bias). This
  module states what the core's unscoped buffers hold at each boundary between them — the launch memory, then
  each region's arrays at what its write-backs leave and every host operation applied in order —, reads each
  argument array back through that chain to its launch contents, gives each pipeline its proof data at its
  region's entry contents, states each region as a segment (its arrays taken out of the unscoped buffers at
  entry and put back at exit, the generator register lent to the region's invariant, nothing owed, no
  semaphore of the kernel's own), and concludes: from any memory, every weakly fair execution of @main
  terminates, nothing faults, and every unscoped buffer ends at the last boundary's contents. The frame claim
  is that statement read at the arguments. Everything is stated for an arbitrary float instance `F`.
-/
import proofs.«174054_j19868518711680_2_alg».proof.Proof.FrameBits.Region0
import proofs.«174054_j19868518711680_2_alg».proof.Proof.FrameBits.Region1
import proofs.«174054_j19868518711680_2_alg».proof.Proof.Gen.Kernel.Regions

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m ((c : Dev nD), b)
abbrev VR0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VR1 : (c : Dev nD) → (b : Ref sig .tc) → Buf (Elt F) ((c : Thread nD τ).loc b) := fun c b => W1 m c b
theorem hF0 (c : Dev nD) (w : Fin cfg0.W) : (dat0 (VR0 m) c).arrAt w cfg0.N = VR1 m c (Pipeline.arrRef spec0 w) :=
  (W1_arr m c w).symm
theorem hrest0 (c : Dev nD) : ∀ b, b ∉ Finset.univ.image (Pipeline.arrRef spec0) → VR1 m c b = VR0 m c b :=
  fun b hb => W1_of_ne m c b fun w e => hb (Finset.mem_image.mpr ⟨w, Finset.mem_univ _, e⟩)

/-- After the host operation (the second region's entry). -/
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (VR2 m) c).arrAt w cfg1.N
theorem W3_arr (c : Dev nD) (w : Fin cfg1.W) :
    W3 m c (Proc.devRef .tc (Pipeline.arrRef spec1 w)) = (dat1 (VR2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VR3 : (c : Dev nD) → (b : Ref sig .tc) → Buf (Elt F) ((c : Thread nD τ).loc b) := fun c b => W3 m c b
theorem hF1 (c : Dev nD) (w : Fin cfg1.W) : (dat1 (VR2 m) c).arrAt w cfg1.N = VR3 m c (Pipeline.arrRef spec1 w) :=
  (W3_arr m c w).symm
theorem hrest1 (c : Dev nD) : ∀ b, b ∉ Finset.univ.image (Pipeline.arrRef spec1) → VR3 m c b = VR2 m c b :=
  fun b hb => W3_of_ne m c b fun w e => hb (Finset.mem_image.mpr ⟨w, Finset.mem_univ _, e⟩)

/-! ## The arguments end as launched: no region writes one, the host operation writes none -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (VR2 m) c).arrAt_in 0 rfl _).trans (A_eq1 (VR2 m) c 0))
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((dat0 (VR0 m) c).arrAt_in 0 rfl _).trans (A_eq0 (VR0 m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 1).trans (((dat0 (VR0 m) c).arrAt_in 1 rfl _).trans (A_eq0 (VR0 m) c 1))
    _ = m ((c : Thread nD τ).loc main_arg3) := rfl

/-- The result array ends at what the second pipeline's write-backs leave. -/
theorem W3_main_v2 (c : Dev nD) : W3 m c (Proc.devRef .tc main_v2) = (dat1 (VR2 m) c).arrAt 3 cfg1.N := W3_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant takes the
    generator register and the scoped rest in (the accumulator among it, at anything) and gives them back with
    the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (VR2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (VR2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR2 m c) (VR3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer at the last
    boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.Kernel.MM

end
-- ==== Proof.FrameIdeal.Region0.lean ====
/-
  The first kernel region: the elementwise product of the weight and the mask, rounded to bf16, over a
  grid of 8 row blocks of 512 rows. At a parameter `V` (what the core's buffers hold when the region is
  entered) this module states what each window's staging buffer holds after the body at a grid point
  (both inputs their blocks, the output the product of the two input blocks, written by one store that
  covers the block), the body's triple, and the body obligation of the pipeline at every point.
  Everything is stated for an arbitrary float instance `F`.
-/
import proofs.«174054_j19868518711680_2_alg».proof.Proof.Gen.KernelIdeal.Launch
import proofs.«174054_j19868518711680_2_alg».proof.Proof.Gen.KernelIdeal.Skeleton
import proofs.«174054_j19868518711680_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's staging buffer holds the mask's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×4096 block as a rectangle: what every load and the store of the body address. -/
abbrev rW : Rect S512x4096 := Rect.unit (s := S512x4096) ![0, 0] S512x4096.size inb_S512x4096_S512x4096_0_0

/-- What the body leaves in the output window's buffer: its one store, of the rounded product of the two
    input blocks, read back. -/
def prodBlock (x0 x1 : Vec F S512x4096 .f32) : Vec F S512x4096 .bf16 :=
  View.canon [⟨rW, k0_pay1 (View.ld x0 rW) (View.ld x1 rW)⟩]

/-- That one store covers the block. -/
theorem prodBlock_cover (p0 : Vec F S512x4096 .bf16) (y : S512x4096.Idx) :
    ∃ pc ∈ ([⟨rW, p0⟩] : List (View.Piece (Elt F) S512x4096 .bf16)), y ∈ pc.1.set :=
  View.cover_of_tiled [⟨rW, p0⟩] S512x4096.size (by rfl) y

set_option maxHeartbeats 1000000 in
/-- The body on whole staging memrefs, the inputs' at `x0`, `x1` and the output's at anything, runs to the
    continuation holding the inputs as they were and the output at `prodBlock x0 x1`. -/
theorem sound_kernel0 (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S512x4096 .bf16) (harg3 : arg3.IsWhole)
    (x0 x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc0__mask_weight_kernel i arg1 harg1 arg2 harg2 arg3 harg3) K := by
  simp only [cc0__mask_weight_kernel_eq_skeleton]; unfold cc0__mask_weight_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodBlock_cover _)

/-- The proof data of the first pipeline on core `c`: the arrays as the region finds them; after the body at
    point `t` each input's buffer at its block and the output's at the product of the two; the invariant the
    scoped buffers the pipeline does not stage and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = prodBlock (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.MM

end
-- ==== Proof.FrameIdeal.Region1Runs.lean ====
/-
  The second kernel region, first half: the matrix product accumulated over the contracted axis. The grid
  is 8 × 1 × 16; at the point with coordinates (i, 0, k) the body adds the product of the k-th block of 256
  columns of 1024 rows of the left operand with the k-th block of 256 columns of the right one into a
  1024 × 4096 accumulator kept in a scratch buffer, which it zeroes first when k = 0, and when k = 15 it
  stores the accumulator plus the bias row into the output block. This module states the two branch
  conditions in closed form over the grid, where the output window is idle, and the body's run in each of
  the three cases the grid meets (first step, middle step, last step of a row block): on whole staging
  memrefs the body runs to its continuation with the scratch (and, in the last case, the output buffer)
  holding the contents it was given with a list of pieces written over them; the lists are found by
  running the body. Everything is stated for an arbitrary float instance `F`.
-/
import proofs.«174054_j19868518711680_2_alg».proof.Proof.Gen.KernelIdeal.Launch
import proofs.«174054_j19868518711680_2_alg».proof.Proof.Gen.KernelIdeal.Skeleton
import proofs.«174054_j19868518711680_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The condition of the body's first branch (zero the accumulator): the last grid coordinate is 0. -/
abbrev condFirst (i : grid1.Coords) : Prop :=
  (Scalar.cmpi .ne (Scalar.extui (Scalar.cmpi .eq (BitVec.ofNat 32 (i 2).val) 0#32)) 0#32) = 1#1
/-- It holds at the points ≡ 0 (mod 16). -/
theorem hcondFirst : ∀ t : Fin cfg1.N, condFirst (grid1.coords t) ↔ t.val % 16 = 0 :=
  (by decide +kernel : ∀ t : Fin grid1.N, condFirst (grid1.coords t) ↔ t.val % 16 = 0)

/-- The condition of the body's second branch (emit the output block): the last grid coordinate is 15. -/
abbrev condLast (i : grid1.Coords) : Prop := k1_cond2 i = 1#1
/-- It holds at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last step of a row block the output window is idle and is not written back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- At the last step it is live. -/
theorem live1_3 : ∀ t : Fin cfg1.N, condLast (grid1.coords t) → cfg1.idle 3 (grid1.coords t) = false := by decide +kernel

/-! ## The body's run, case by case -/

set_option maxHeartbeats 4000000 in
/-- FIRST STEP (k = 0): the scratch may hold anything; the body zeroes it and adds the first product. The
    bias block and the output buffer are handed back untouched. -/
noncomputable def runFirst (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole)
    (hcF : condFirst i) (hcL : ¬condLast i)
    (x0 : Vec F S1024x256 .f32) (x1 : Vec F S4096x256 .bf16) :
    { LS : List (View.Piece (Elt F) S1024x4096 .f32) //
      ∀ (x2 : Vec F S1x4096 .f32) (xi : Vec F S1024x4096 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__masked_matmul_kernel i arg3 harg3 arg4 harg4 arg5 harg5 arg6 harg6 arg7 harg7) K } := by
  refine ⟨?_, fun x2 xi E K => ?run⟩
  case run =>
    simp only [cc1__masked_matmul_kernel_eq_skeleton]; unfold cc1__masked_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1
    obtain rfl := harg5.eq_unread hf2; obtain rfl := harg6.eq_unread hf3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- MIDDLE STEP (0 < k < 15): the scratch holds what the step before left (`xs`); the body adds one more
    product. The bias block and the output buffer are handed back untouched. -/
noncomputable def runMid (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole)
    (hcF : ¬condFirst i) (hcL : ¬condLast i)
    (x0 : Vec F S1024x256 .f32) (x1 : Vec F S4096x256 .bf16) (xs : Vec F S1024x4096 .f32) :
    { LS : List (View.Piece (Elt F) S1024x4096 .f32) //
      ∀ (x2 : Vec F S1x4096 .f32) (xi : Vec F S1024x4096 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc1__masked_matmul_kernel i arg3 harg3 arg4 harg4 arg5 harg5 arg6 harg6 arg7 harg7) K } := by
  refine ⟨?_, fun x2 xi E K => ?run⟩
  case run =>
    simp only [cc1__masked_matmul_kernel_eq_skeleton]; unfold cc1__masked_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1
    obtain rfl := harg5.eq_unread hf2; obtain rfl := harg6.eq_unread hf3; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- LAST STEP (k = 15): the scratch holds what the step before left; the body adds the last product and
    stores the accumulator plus the bias row into the output buffer, which may hold anything before. -/
noncomputable def runLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole)
    (hcF : ¬condFirst i) (hcL : condLast i)
    (x0 : Vec F S1024x256 .f32) (x1 : Vec F S4096x256 .bf16) (x2 : Vec F S1x4096 .f32) (xs : Vec F S1024x4096 .f32) :
    Σ' (LO : List (View.Piece (Elt F) S1024x4096 .f32)), { LS : List (View.Piece (Elt F) S1024x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__masked_matmul_kernel i arg3 harg3 arg4 harg4 arg5 harg5 arg6 harg6 arg7 harg7) K } := by
  refine ⟨?_, ?_, fun E K => ?run⟩
  case run =>
    simp only [cc1__masked_matmul_kernel_eq_skeleton]; unfold cc1__masked_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1
    obtain rfl := harg5.eq_unread hf2; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.MM

end
-- ==== Proof.FrameIdeal.Region1.lean ====
/-
  The second kernel region, second half. From the body's three runs: what each case leaves in the scratch
  accumulator and in the output buffer (its pieces read back; they cover the buffer), the accumulator after
  every grid point by recursion on the point — restarted at the first step of each row block, extended by
  one product at every other step —, the output block the last step of a row block emits, the region
  invariant (the scratch at the accumulator the point before left, the other scoped buffers and the
  generator register at anything), the pipeline's proof data and its body obligation at every point.
  Everything is stated for an arbitrary float instance `F`, at a parameter `V`: what the core's buffers
  hold when the region is entered.
-/
import proofs.«174054_j19868518711680_2_alg».proof.Proof.FrameIdeal.Region1Runs

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs at a point, the scratch, and two views to state contents through -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x4096 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM : Memref sig .tc .vmem S1024x4096 .f32 := Memref.whole cc1_scratch0
abbrev VS : View sig .tc .vmem S1024x4096 .f32 := scM.view
abbrev VO : View sig .tc .vmem S1024x4096 .f32 := (Memref.whole cc1_stg3_0 : Memref sig .tc .vmem S1024x4096 .f32).view

/-! ## What each case leaves -/

theorem scoverFirst (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : condFirst i) (hcL : ¬condLast i)
    (x0 : Vec F S1024x256 .f32) (x1 : Vec F S4096x256 .bf16) (y : S1024x4096.Idx) :
    ∃ pc ∈ (runFirst c i arg3 harg3 arg4 harg4 arg5 harg5 arg6 harg6 arg7 harg7 hcF hcL x0 x1).1, y ∈ pc.1.set :=
  View.cover_of_tiledL (runFirst c i arg3 harg3 arg4 harg4 arg5 harg5 arg6 harg6 arg7 harg7 hcF hcL x0 x1).1 S1024x4096.size (by sl_kernel_rfl) y

/-- The accumulator after a first step. -/
def soutFirst (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : condFirst i) (hcL : ¬condLast i)
    (x0 : Vec F S1024x256 .f32) (x1 : Vec F S4096x256 .bf16) : Vec F S1024x4096 .f32 :=
  VS.read (Elt F) (VS.writes (Elt F) VS.junk (runFirst c i arg3 harg3 arg4 harg4 arg5 harg5 arg6 harg6 arg7 harg7 hcF hcL x0 x1).1)

theorem scoverMid (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : ¬condLast i)
    (x0 : Vec F S1024x256 .f32) (x1 : Vec F S4096x256 .bf16) (xs : Vec F S1024x4096 .f32) (y : S1024x4096.Idx) :
    ∃ pc ∈ (runMid c i arg3 harg3 arg4 harg4 arg5 harg5 arg6 harg6 arg7 harg7 hcF hcL x0 x1 xs).1, y ∈ pc.1.set :=
  View.cover_of_tiledL (runMid c i arg3 harg3 arg4 harg4 arg5 harg5 arg6 harg6 arg7 harg7 hcF hcL x0 x1 xs).1 S1024x4096.size (by sl_kernel_rfl) y

/-- The accumulator after a middle step, from the one before it. -/
def soutMid (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : ¬condLast i)
    (x0 : Vec F S1024x256 .f32) (x1 : Vec F S4096x256 .bf16) (xs : Vec F S1024x4096 .f32) : Vec F S1024x4096 .f32 :=
  VS.read (Elt F) (VS.writes (Elt F) VS.junk (runMid c i arg3 harg3 arg4 harg4 arg5 harg5 arg6 harg6 arg7 harg7 hcF hcL x0 x1 xs).1)

theorem scoverLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) (y : S1024x4096.Idx) :
    ∃ pc ∈ (runLast c i arg3 harg3 arg4 harg4 arg5 harg5 arg6 harg6 arg7 harg7 hcF hcL x0 x1 x2 xs).2.1, y ∈ pc.1.set :=
  View.cover_of_tiledL (runLast c i arg3 harg3 arg4 harg4 arg5 harg5 arg6 harg6 arg7 harg7 hcF hcL x0 x1 x2 xs).2.1 S1024x4096.size (by sl_kernel_rfl) y

/-- The accumulator after a last step, from the one before it. -/
def soutLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) : Vec F S1024x4096 .f32 :=
  VS.read (Elt F) (VS.writes (Elt F) VS.junk (runLast c i arg3 harg3 arg4 harg4 arg5 harg5 arg6 harg6 arg7 harg7 hcF hcL x0 x1 x2 xs).2.1)

theorem ocoverLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) (y : S1024x4096.Idx) :
    ∃ pc ∈ (runLast c i arg3 harg3 arg4 harg4 arg5 harg5 arg6 harg6 arg7 harg7 hcF hcL x0 x1 x2 xs).1, y ∈ pc.1.set :=
  View.cover_of_tiledL (runLast c i arg3 harg3 arg4 harg4 arg5 harg5 arg6 harg6 arg7 harg7 hcF hcL x0 x1 x2 xs).1 S1024x4096.size (by sl_kernel_rfl) y

/-- The output block a last step emits. -/
def outLast (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) : Vec F S1024x4096 .f32 :=
  VO.read (Elt F) (VO.writes (Elt F) VO.junk (runLast c i arg3 harg3 arg4 harg4 arg5 harg5 arg6 harg6 arg7 harg7 hcF hcL x0 x1 x2 xs).1)

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window is fetched at the first point only; its block index never moves, so it holds the bias row at
    every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- THE ACCUMULATOR after the body at position `n`: at the first step of a row block the first product over
    zero; at every other step the step's product added to what the point before left. -/
def accAt (c : Dev nD) : (n : ℕ) → n < cfg1.N → Vec F S1024x4096 .f32
  | 0, hn => soutFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) ((hcondFirst ⟨0, hn⟩).mpr (Nat.zero_mod _))
      (fun h => (fun h => by (try dsimp only at h); omega) ((hcondLast ⟨0, hn⟩).mp h)) (iblk1 V c 0 ⟨0, hn⟩) (iblk1 V c 1 ⟨0, hn⟩)
  | n + 1, hn =>
    if h0 : (n + 1) % 16 = 0 then
      soutFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) ((hcondFirst ⟨n + 1, hn⟩).mpr h0)
        (fun h => (fun h => by (try dsimp only at h); omega) ((hcondLast ⟨n + 1, hn⟩).mp h)) (iblk1 V c 0 ⟨n + 1, hn⟩) (iblk1 V c 1 ⟨n + 1, hn⟩)
    else if h2 : (n + 1) % 16 = 15 then
      soutLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcondFirst ⟨n + 1, hn⟩).mp h)) ((hcondLast ⟨n + 1, hn⟩).mpr h2)
        (iblk1 V c 0 ⟨n + 1, hn⟩) (iblk1 V c 1 ⟨n + 1, hn⟩) (iblk1 V c 2 ⟨n + 1, hn⟩) (accAt c n (Nat.lt_of_succ_lt hn))
    else
      soutMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (fun h => h0 ((hcondFirst ⟨n + 1, hn⟩).mp h)) (fun h => h2 ((hcondLast ⟨n + 1, hn⟩).mp h))
        (iblk1 V c 0 ⟨n + 1, hn⟩) (iblk1 V c 1 ⟨n + 1, hn⟩) (accAt c n (Nat.lt_of_succ_lt hn))

theorem accAt_first (c : Dev nD) (t : Fin cfg1.N) (h0 : t.val % 16 = 0) (h2 : ¬t.val % 16 = 15) :
    accAt V c t.val t.isLt = soutFirst c (grid1.coords t) (ms1_0 t) (hs1_0 t) (ms1_1 t) (hs1_1 t) (ms1_2 t) (hs1_2 t) (ms1_3 t) (hs1_3 t) scM (Memref.isWhole_whole _) ((hcondFirst t).mpr h0) (fun h => h2 ((hcondLast t).mp h))
      (iblk1 V c 0 t) (iblk1 V c 1 t) := by
  obtain ⟨n, hn⟩ := t
  cases n with
  | zero => exact rfl
  | succ n => exact (dif_pos h0).trans rfl

theorem accAt_mid (c : Dev nD) (t : Fin cfg1.N) (h0 : ¬t.val % 16 = 0) (h2 : ¬t.val % 16 = 15) :
    accAt V c t.val t.isLt = soutMid c (grid1.coords t) (ms1_0 t) (hs1_0 t) (ms1_1 t) (hs1_1 t) (ms1_2 t) (hs1_2 t) (ms1_3 t) (hs1_3 t) scM (Memref.isWhole_whole _) (fun h => h0 ((hcondFirst t).mp h)) (fun h => h2 ((hcondLast t).mp h))
      (iblk1 V c 0 t) (iblk1 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)

theorem accAt_last (c : Dev nD) (t : Fin cfg1.N) (h0 : ¬t.val % 16 = 0) (h2 : t.val % 16 = 15) :
    accAt V c t.val t.isLt = soutLast c (grid1.coords t) (ms1_0 t) (hs1_0 t) (ms1_1 t) (hs1_1 t) (ms1_2 t) (hs1_2 t) (ms1_3 t) (hs1_3 t) scM (Memref.isWhole_whole _) (fun h => h0 ((hcondFirst t).mp h)) ((hcondLast t).mpr h2)
      (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- THE OUTPUT BLOCK after the body at point `t`: at the last step of a row block the accumulator plus the bias
    row; elsewhere the window is idle and this value is never consulted. -/
def emitAt (c : Dev nD) (t : Fin cfg1.N) : Vec F S1024x4096 .f32 :=
  if h2 : t.val % 16 = 15 then
    outLast c (grid1.coords t) (ms1_0 t) (hs1_0 t) (ms1_1 t) (hs1_1 t) (ms1_2 t) (hs1_2 t) (ms1_3 t) (hs1_3 t) scM (Memref.isWhole_whole _) (fun h => (fun h => by omega) ((hcondFirst t).mp h)) ((hcondLast t).mpr h2)
      (iblk1 V c 0 t) (iblk1 V c 1 t) (iblk1 V c 2 t) (accAt V c (t.val - 1) (Nat.lt_of_le_of_lt (Nat.sub_le _ _) t.isLt))
  else k1_pay1

theorem emitAt_last (c : Dev nD) (t : Fin cfg1.N) (h0 : ¬t.val % 16 = 0) (h2 : t.val % 16 = 15) :
    emitAt V c t = outLast c (grid1.coords t) (ms1_0 t) (hs1_0 t) (ms1_1 t) (hs1_1 t) (ms1_2 t) (hs1_2 t) (ms1_3 t) (hs1_3 t) scM (Memref.isWhole_whole _) (fun h => h0 ((hcondFirst t).mp h)) ((hcondLast t).mpr h2)
      (iblk1 V c 0 t) (iblk1 V c 1 t) (iblk1 V c 2 t) (accAt V c (t.val - 1) (Nat.lt_of_le_of_lt (Nat.sub_le _ _) t.isLt)) :=
  (dif_pos h2).trans rfl

/-! ## The region invariant -/

/-- A scoped buffer at some contents. -/
def heldB (c : Dev nD) (b : Ref sig .tc) : sProp 𝕄 :=
  iprop(∃ f : Buf (Elt F) ((c : Thread nD τ).loc b), ((c : Thread nD τ).loc b) ↦{fullShare} f)

/-- What the region hands the kernel beside the windows: the first pipeline's six staging buffers and the
    accumulator, each at some contents, and the generator register. -/
theorem PhiA1_eq (c : Dev nD) :
    (Pipeline.ΦA spec1 c : sProp 𝕄)
      = iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ (∃ d, owns (c : Thread nD τ) scM fullShare d)) ∗ (∃ r, prngReg c r)) := by
  unfold Pipeline.ΦA heldB; rw [scopedRest1_eq]; simp only [scM, owns_whole]; try rfl

/-- The invariant before position `n`: before the first point, that; afterwards the same with the accumulator at
    what the point before left. -/
def PhiS (c : Dev nD) : (n : ℕ) → n ≤ cfg1.N → sProp 𝕄
  | 0, _ => Pipeline.ΦA spec1 c
  | n + 1, hn => iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop((heldB (F := F) c cc0_stg0_0 ∗ heldB (F := F) c cc0_stg0_1 ∗ heldB (F := F) c cc0_stg1_0 ∗ heldB (F := F) c cc0_stg1_1 ∗ heldB (F := F) c cc0_stg2_0 ∗ heldB (F := F) c cc0_stg2_1 ∗ owns (c : Thread nD τ) scM fullShare (accAt V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => emitAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = emitAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms say which case the point is in; the invariant hands the body the
    accumulator at what the point before left (at anything at the very first point), and takes it back at this
    point's; an idle output buffer passes through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 16 = 0
  · have h2 : ¬t.val % 16 = 15 := by omega
    have hcF : condFirst (grid1.coords t) := (hcondFirst t).mpr h0
    have hcL : ¬condLast (grid1.coords t) := fun h => h2 ((hcondLast t).mp h)
    rw [show (dat1 V c).leavesExact 0 t = owns (c : Thread nD τ) (ms1_0 t) fullShare ((dat1 V c).after 0 t) from (by unfold Dat.leavesExact; rw [live1_0 t]), after1_0]
    rw [show (dat1 V c).leavesExact 1 t = owns (c : Thread nD τ) (ms1_1 t) fullShare ((dat1 V c).after 1 t) from (by unfold Dat.leavesExact; rw [live1_1 t]), after1_1]
    rw [show (dat1 V c).leavesExact 2 t = owns (c : Thread nD τ) (ms1_2 t) fullShare ((dat1 V c).after 2 t) from (by unfold Dat.leavesExact; rw [live1_2 t]), after1_2]
    rw [Dat.leavesExact_idle (dat1 V c) 3 t (idle1_3 t hcL) (noFlush1_3 t hcL)]
    rw [accAt_first V c t h0 h2]
    unfold soutFirst; (try dsimp only)
    by_cases hz : t.val = 0
    ·
      rw [PhiS_castSucc V c t, PhiS_zero V c _ _ hz, PhiA1_eq]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) _ _ _ _ _ _ _ _ _ _ hcF hcL (iblk1 V c 0 t) (iblk1 V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverFirst c _ _ _ _ _ _ _ _ _ _ _ _ _ _ _)
        · iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) _ _ _ _ _ _ _ _ _ _ hcF hcL (iblk1 V c 0 t) (iblk1 V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverFirst c _ _ _ _ _ _ _ _ _ _ _ _ _ _ _)
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    have hcF : ¬condFirst (grid1.coords t) := fun h => h0 ((hcondFirst t).mp h)
    by_cases h2 : t.val % 16 = 15
    · have hcL : condLast (grid1.coords t) := (hcondLast t).mpr h2
      rw [show (dat1 V c).leavesExact 0 t = owns (c : Thread nD τ) (ms1_0 t) fullShare ((dat1 V c).after 0 t) from (by unfold Dat.leavesExact; rw [live1_0 t]), after1_0]
      rw [show (dat1 V c).leavesExact 1 t = owns (c : Thread nD τ) (ms1_1 t) fullShare ((dat1 V c).after 1 t) from (by unfold Dat.leavesExact; rw [live1_1 t]), after1_1]
      rw [show (dat1 V c).leavesExact 2 t = owns (c : Thread nD τ) (ms1_2 t) fullShare ((dat1 V c).after 2 t) from (by unfold Dat.leavesExact; rw [live1_2 t]), after1_2]
      rw [show (dat1 V c).leavesExact 3 t = owns (c : Thread nD τ) (ms1_3 t) fullShare ((dat1 V c).after 3 t) from (by unfold Dat.leavesExact; rw [live1_3 t hcL]), after1_3]
      rw [accAt_last V c t h0 h2, emitAt_last V c t h0 h2]
      unfold soutLast outLast; (try dsimp only)
      rw [PhiS_castSucc V c t, PhiS_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runLast c (grid1.coords t) _ _ _ _ _ _ _ _ _ _ hcF hcL (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverLast c _ _ _ _ _ _ _ _ _ _ _ _ _ _ _ _ _)
        · iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverLast c _ _ _ _ _ _ _ _ _ _ _ _ _ _ _ _ _)
    · have hcL : ¬condLast (grid1.coords t) := fun h => h2 ((hcondLast t).mp h)
      rw [show (dat1 V c).leavesExact 0 t = owns (c : Thread nD τ) (ms1_0 t) fullShare ((dat1 V c).after 0 t) from (by unfold Dat.leavesExact; rw [live1_0 t]), after1_0]
      rw [show (dat1 V c).leavesExact 1 t = owns (c : Thread nD τ) (ms1_1 t) fullShare ((dat1 V c).after 1 t) from (by unfold Dat.leavesExact; rw [live1_1 t]), after1_1]
      rw [show (dat1 V c).leavesExact 2 t = owns (c : Thread nD τ) (ms1_2 t) fullShare ((dat1 V c).after 2 t) from (by unfold Dat.leavesExact; rw [live1_2 t]), after1_2]
      rw [Dat.leavesExact_idle (dat1 V c) 3 t (idle1_3 t hcL) (noFlush1_3 t hcL)]
      rw [accAt_mid V c t h0 h2]
      unfold soutMid; (try dsimp only)
      rw [PhiS_castSucc V c t, PhiS_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runMid c (grid1.coords t) _ _ _ _ _ _ _ _ _ _ hcF hcL (iblk1 V c 0 t) (iblk1 V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (scoverMid c _ _ _ _ _ _ _ _ _ _ _ _ _ _ _ _)
        · iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨Ha, Hb, Hc, Hd, He, Hf, HS⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists _; iexact HS
  · iexact Hg

end Region1

end Cert.KernelIdeal.MM

end
-- ==== Proof.FrameIdeal.Run.lean ====
/-
  The whole program as a run: @main is the first kernel region (the masked weight), one host operation (the
  bias reshaped to a row), and the second kernel region (the accumulated matrix product plus bias). This
  module states what the core's unscoped buffers hold at each boundary between them — the launch memory, then
  each region's arrays at what its write-backs leave and every host operation applied in order —, reads each
  argument array back through that chain to its launch contents, gives each pipeline its proof data at its
  region's entry contents, states each region as a segment (its arrays taken out of the unscoped buffers at
  entry and put back at exit, the generator register lent to the region's invariant, nothing owed, no
  semaphore of the kernel's own), and concludes: from any memory, every weakly fair execution of @main
  terminates, nothing faults, and every unscoped buffer ends at the last boundary's contents. The frame claim
  is that statement read at the arguments. Everything is stated for an arbitrary float instance `F`.
-/
import proofs.«174054_j19868518711680_2_alg».proof.Proof.FrameIdeal.Region0
import proofs.«174054_j19868518711680_2_alg».proof.Proof.FrameIdeal.Region1
import proofs.«174054_j19868518711680_2_alg».proof.Proof.Gen.KernelIdeal.Regions

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m ((c : Dev nD), b)
abbrev VR0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VR1 : (c : Dev nD) → (b : Ref sig .tc) → Buf (Elt F) ((c : Thread nD τ).loc b) := fun c b => W1 m c b
theorem hF0 (c : Dev nD) (w : Fin cfg0.W) : (dat0 (VR0 m) c).arrAt w cfg0.N = VR1 m c (Pipeline.arrRef spec0 w) :=
  (W1_arr m c w).symm
theorem hrest0 (c : Dev nD) : ∀ b, b ∉ Finset.univ.image (Pipeline.arrRef spec0) → VR1 m c b = VR0 m c b :=
  fun b hb => W1_of_ne m c b fun w e => hb (Finset.mem_image.mpr ⟨w, Finset.mem_univ _, e⟩)

/-- After the host operation (the second region's entry). -/
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (VR2 m) c).arrAt w cfg1.N
theorem W3_arr (c : Dev nD) (w : Fin cfg1.W) :
    W3 m c (Proc.devRef .tc (Pipeline.arrRef spec1 w)) = (dat1 (VR2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VR3 : (c : Dev nD) → (b : Ref sig .tc) → Buf (Elt F) ((c : Thread nD τ).loc b) := fun c b => W3 m c b
theorem hF1 (c : Dev nD) (w : Fin cfg1.W) : (dat1 (VR2 m) c).arrAt w cfg1.N = VR3 m c (Pipeline.arrRef spec1 w) :=
  (W3_arr m c w).symm
theorem hrest1 (c : Dev nD) : ∀ b, b ∉ Finset.univ.image (Pipeline.arrRef spec1) → VR3 m c b = VR2 m c b :=
  fun b hb => W3_of_ne m c b fun w e => hb (Finset.mem_image.mpr ⟨w, Finset.mem_univ _, e⟩)

/-! ## The arguments end as launched: no region writes one, the host operation writes none -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (VR2 m) c).arrAt_in 0 rfl _).trans (A_eq1 (VR2 m) c 0))
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((dat0 (VR0 m) c).arrAt_in 0 rfl _).trans (A_eq0 (VR0 m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 1).trans (((dat0 (VR0 m) c).arrAt_in 1 rfl _).trans (A_eq0 (VR0 m) c 1))
    _ = m ((c : Thread nD τ).loc main_arg3) := rfl

/-- The result array ends at what the second pipeline's write-backs leave. -/
theorem W3_main_v2 (c : Dev nD) : W3 m c (Proc.devRef .tc main_v2) = (dat1 (VR2 m) c).arrAt 3 cfg1.N := W3_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant takes the
    generator register and the scoped rest in (the accumulator among it, at anything) and gives them back with
    the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (VR2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (VR2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR2 m c) (VR3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer at the last
    boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.KernelIdeal.MM

end
-- ==== Proof.Value.Pieces.lean ====
/-
  What the kernels' stores leave, as the bodies' arithmetic. The first kernel's output block is the rounded
  product of its two input blocks. For the second kernel: after a first step the accumulator is the step's
  product added to zero; after any later step it is the step's product added to what the accumulator held;
  and the block the last step emits is that new accumulator plus the bias row. Each is read off the pieces the
  body's run found: every store and load of these bodies addresses a whole buffer at zero offsets, so the last
  store into a buffer is what it holds, and a load after a store reads what was stored. For any float instance.
-/
import proofs.«174054_j19868518711680_2_alg».proof.Proof.FrameIdeal.Region0
import proofs.«174054_j19868518711680_2_alg».proof.Proof.FrameIdeal.Region1
import Idealize.ShloMosaic.Lib.Pipeline.Value

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The first kernel's output block is its payload of the two input blocks. -/
theorem prodBlock_eq (x0 x1 : Vec F S512x4096 .f32) : prodBlock x0 x1 = k0_pay1 x0 x1 := by
  unfold prodBlock
  rw [View.canon_unit_zero hz2]
  simp only [View.ld_unit_zero (S := S512x4096) hz2]

/-- After a first step the accumulator is the step's payload over the zero block. -/
theorem soutFirst_eq (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : condFirst i) (hcL : ¬condLast i)
    (x0 : Vec F S1024x256 .f32) (x1 : Vec F S4096x256 .bf16) :
    soutFirst c i arg3 harg3 arg4 harg4 arg5 harg5 arg6 harg6 arg7 harg7 hcF hcL x0 x1 = k1_pay2 x0 x1 (k1_pay1 (F := F)) := by
  unfold soutFirst
  rw [View.read_writes_eq_canon _ _ _ (scoverFirst c i arg3 harg3 arg4 harg4 arg5 harg5 arg6 harg6 arg7 harg7 hcF hcL x0 x1)]
  unfold runFirst
  dsimp only
  try sl_unfold_words
  rw [View.canon_cons_unit_zero hz2, View.readCov_unit_zero (S := S1024x4096) _ hz2]
  simp only [View.readAt_eq_ld, harg3.read_unread, harg4.read_unread, View.ld_unit_zero (S := S1024x256) hz2, View.ld_unit_zero (S := S4096x256) hz2]

/-- After a middle step it is the step's payload over what it held. -/
theorem soutMid_eq (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : ¬condLast i)
    (x0 : Vec F S1024x256 .f32) (x1 : Vec F S4096x256 .bf16) (xs : Vec F S1024x4096 .f32) :
    soutMid c i arg3 harg3 arg4 harg4 arg5 harg5 arg6 harg6 arg7 harg7 hcF hcL x0 x1 xs = k1_pay2 x0 x1 xs := by
  unfold soutMid
  rw [View.read_writes_eq_canon _ _ _ (scoverMid c i arg3 harg3 arg4 harg4 arg5 harg5 arg6 harg6 arg7 harg7 hcF hcL x0 x1 xs)]
  unfold runMid
  dsimp only
  try sl_unfold_words
  rw [View.canon_unit_zero hz2]
  simp only [View.readAt_eq_ld, harg3.read_unread, harg4.read_unread, harg7.read_unread, View.ld_unit_zero (S := S1024x256) hz2, View.ld_unit_zero (S := S4096x256) hz2, View.ld_unit_zero (S := S1024x4096) hz2]

/-- After a last step likewise. -/
theorem soutLast_eq (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) :
    soutLast c i arg3 harg3 arg4 harg4 arg5 harg5 arg6 harg6 arg7 harg7 hcF hcL x0 x1 x2 xs = k1_pay2 x0 x1 xs := by
  unfold soutLast
  rw [View.read_writes_eq_canon _ _ _ (scoverLast c i arg3 harg3 arg4 harg4 arg5 harg5 arg6 harg6 arg7 harg7 hcF hcL x0 x1 x2 xs)]
  unfold runLast
  dsimp only
  try sl_unfold_words
  rw [View.canon_unit_zero hz2]
  simp only [View.readAt_eq_ld, harg3.read_unread, harg4.read_unread, harg7.read_unread, View.ld_unit_zero (S := S1024x256) hz2, View.ld_unit_zero (S := S4096x256) hz2, View.ld_unit_zero (S := S1024x4096) hz2]

/-- The block a last step emits is the bias payload of the new accumulator and the bias row. -/
theorem outLast_eq (c : Dev nD) (i : grid1.Coords)
    (arg3 : Memref sig .tc .vmem S1024x256 .f32) (harg3 : arg3.IsWhole)
    (arg4 : Memref sig .tc .vmem S4096x256 .bf16) (harg4 : arg4.IsWhole)
    (arg5 : Memref sig .tc .vmem S1x4096 .f32) (harg5 : arg5.IsWhole)
    (arg6 : Memref sig .tc .vmem S1024x4096 .f32) (harg6 : arg6.IsWhole)
    (arg7 : Memref sig .tc .vmem S1024x4096 .f32) (harg7 : arg7.IsWhole) (hcF : ¬condFirst i) (hcL : condLast i)
    (x0 : Vec F S1024x256 .f32) (x1 : Vec F S4096x256 .bf16) (x2 : Vec F S1x4096 .f32) (xs : Vec F S1024x4096 .f32) :
    outLast c i arg3 harg3 arg4 harg4 arg5 harg5 arg6 harg6 arg7 harg7 hcF hcL x0 x1 x2 xs = k1_pay3 (k1_pay2 x0 x1 xs) x2 := by
  unfold outLast
  rw [View.read_writes_eq_canon _ _ _ (ocoverLast c i arg3 harg3 arg4 harg4 arg5 harg5 arg6 harg6 arg7 harg7 hcF hcL x0 x1 x2 xs)]
  unfold runLast
  dsimp only
  try sl_unfold_words
  rw [View.canon_unit_zero hz2, View.readCov_unit_zero (S := S1024x4096) _ hz2]
  simp only [View.readAt_eq_ld, harg3.read_unread, harg4.read_unread, harg5.read_unread, harg7.read_unread, View.ld_unit_zero (S := S1024x256) hz2, View.ld_unit_zero (S := S4096x256) hz2, View.ld_unit_zero (S := S1024x4096) hz2, View.ld_unit_zero (S := S1x4096) hz2]

end Cert.KernelIdeal.MM

end
-- ==== Proof.Value.Payloads.lean ====
/-
  The kernels' arithmetic read at an index, at the ideal instance (a float an extended real, every operation the
  exact one, a change of format the identity): the first kernel's payload is the product of its two operands;
  the zero block is zero; one accumulation step at row `r`, column `o` adds, to what the accumulator held there,
  the sum over the 256 columns of the step's blocks of the left block's row `r` times the right block's row `o`
  (the matrix unit's product into a zero accumulator is that plain sum, both operands contracted along their
  second axis); and the emitted block adds the bias row's entry at column `o`.
-/
import proofs.«174054_j19868518711680_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MM

open Cert.KernelIdeal Cert.KernelIdeal.Gen
open Idealize.ShloMosaic Idealize.ShloMosaic.ValueIdx

/-- The first kernel's payload at an index: the product (the rounding to bf16 is the identity here). -/
theorem pay0_apply (x0 x1 : Vec Ideal S512x4096 .f32) (j : S512x4096.Idx) :
    k0_pay1 (F := Ideal) x0 x1 j = x0 j * x1 j := rfl

/-- The zero block is zero. -/
theorem zero_apply (j : S1024x4096.Idx) : k1_pay1 (F := Ideal) j = 0 := by
  unfold k1_pay1
  rw [shapeCast_self]
  show Ideal.ofBits .f32 0x00000000#32 = 0
  exact Ideal.ofBits_zero_f32

/-- The step's contraction: both operands along their second axis, 256 long. -/
abbrev dotD : DotDims S1024x256 S4096x256 S1024x4096 := dot_S1024x256_S4096x256_S1024x4096_1_1_0_0_n_n

theorem lhs0 (i : S1024x4096.Idx) (q : dotD.contr.Idx) : (dotD.lhsIdx i q 0).val = (i 0).val := by
  unfold DotDims.lhsIdx
  rw [dif_neg (show ¬(0 : Fin S1024x256.rank) ∈ dotD.lhsBatch by decide), dif_pos (show (0 : Fin S1024x256.rank) ∈ dotD.lhsNonContracting by decide)]
  rfl
theorem lhs1 (i : S1024x4096.Idx) (q : dotD.contr.Idx) : (dotD.lhsIdx i q 1).val = (q ⟨0, by decide⟩).val :=
  dotD.lhsIdx_val_of_single rfl i q
theorem rhs0 (i : S1024x4096.Idx) (q : dotD.contr.Idx) : (dotD.rhsIdx i q 0).val = (i 1).val := by
  unfold DotDims.rhsIdx
  rw [dif_neg (show ¬(0 : Fin S4096x256.rank) ∈ dotD.rhsBatch by decide), dif_pos (show (0 : Fin S4096x256.rank) ∈ dotD.rhsNonContracting by decide)]
  rfl
theorem rhs1 (i : S1024x4096.Idx) (q : dotD.contr.Idx) : (dotD.rhsIdx i q 1).val = (q ⟨0, by decide⟩).val :=
  dotD.rhsIdx_val_of_single rfl i q

/-- The matrix unit's product into the zero accumulator, at row `r` and column `o`. -/
theorem matmul_block_apply (l : FVec Ideal S1024x256 .bf16) (rr : FVec Ideal S4096x256 .bf16) (r : Fin 1024) (o : Fin 4096) :
    matmul dotD none l rr (constant (F := Ideal) S1024x4096 .f32 0x00000000#32) (ix2 r o)
      = ∑ j : Fin 256, l (ix2 r j) * rr (ix2 o j) := by
  simp only [matmul]
  rw [Ideal.matmul_constant_zero_apply, ← Equiv.sum_comp (ValueIdx.contrEquiv1 dotD 256 rfl rfl).symm]
  refine Finset.sum_congr rfl fun k _ => ?_
  have hk := ValueIdx.contrEquiv1_symm_val dotD 256 rfl rfl k
  have el : dotD.lhsIdx (ix2 r o) ((ValueIdx.contrEquiv1 dotD 256 rfl rfl).symm k) = ix2 r k := funext fun a => Fin.ext (by
    match a with
    | ⟨0, _⟩ => exact lhs0 _ _
    | ⟨1, _⟩ => exact (lhs1 _ _).trans hk)
  have er : dotD.rhsIdx (ix2 r o) ((ValueIdx.contrEquiv1 dotD 256 rfl rfl).symm k) = ix2 o k := funext fun a => Fin.ext (by
    match a with
    | ⟨0, _⟩ => exact rhs0 _ _
    | ⟨1, _⟩ => exact (rhs1 _ _).trans hk)
  rw [el, er]

/-- One accumulation step at an index. -/
theorem step_apply (x0 : Vec Ideal S1024x256 .f32) (x1 : Vec Ideal S4096x256 .bf16) (xs : Vec Ideal S1024x4096 .f32)
    (r : Fin 1024) (o : Fin 4096) :
    k1_pay2 (F := Ideal) x0 x1 xs (ix2 r o) = xs (ix2 r o) + ∑ j : Fin 256, x0 (ix2 r j) * x1 (ix2 o j) := by
  unfold k1_pay2
  simp only [shapeCast_self]
  refine (addf_apply _ _ _).trans ?_
  refine congrArg (xs (ix2 r o) + ·) ?_
  exact matmul_block_apply _ _ r o

/-- The emitted block at an index: the accumulator plus the bias row's entry. -/
theorem emit_apply (a : Vec Ideal S1024x4096 .f32) (b : Vec Ideal S1x4096 .f32) (r : Fin 1024) (o : Fin 4096) :
    k1_pay3 (F := Ideal) a b (ix2 r o) = a (ix2 r o) + b (ix2 (0 : Fin 1) o) := by
  unfold k1_pay3
  simp only [shapeCast_self]
  refine (addf_apply _ _ _).trans ?_
  refine congrArg (a (ix2 r o) + ·) ?_
  exact broadcastTo_1b_ab_apply b _ r o

end Cert.KernelIdeal.MM

end
-- ==== Proof.Value.Spec.lean ====
/-
  The masked linear layer as one function of its four arguments, index by index over the extended reals:

      linear x w mk b (p, q) = (∑ k < 4096, x (p, k) · (w (q, k) · mk (q, k))) + b q

  and the one law that joins the two programs: the sum over the 4096 columns is the sum, over the 16 blocks of
  256 consecutive columns, of each block's partial sum. That is a regrouping of a finite sum: it uses only that
  addition of extended reals is commutative and associative, so it needs no finiteness. To state partial sums
  over column ranges without proofs inside indices, an array is read at natural-number coordinates (zero
  outside its extents, which no sum here reaches).
-/
import Idealize.ShloMosaic.PureOps.Ideal
import Idealize.ShloMosaic.Lib.ValueIdx

noncomputable section

namespace Cert.MaskedLinear

open Idealize.ShloMosaic Idealize.ShloMosaic.ValueIdx

abbrev SX : Shape := ⟨2, ![8192, 4096]⟩
abbrev SW : Shape := ⟨2, ![4096, 4096]⟩
abbrev SB : Shape := ⟨1, ![4096]⟩

/-- A rank-2 array read at natural-number coordinates. -/
def at2 {A B : ℕ} (f : (⟨2, ![A, B]⟩ : Shape).Idx → EReal) (a b : ℕ) : EReal :=
  if h : a < A ∧ b < B then f (ix2 ⟨a, h.1⟩ ⟨b, h.2⟩) else 0

theorem at2_ix2 {A B : ℕ} (f : (⟨2, ![A, B]⟩ : Shape).Idx → EReal) (a : Fin A) (b : Fin B) :
    at2 f a.val b.val = f (ix2 a b) := dif_pos ⟨a.isLt, b.isLt⟩

theorem at2_of_lt {A B : ℕ} (f : (⟨2, ![A, B]⟩ : Shape).Idx → EReal) {a b : ℕ} (ha : a < A) (hb : b < B) :
    at2 f a b = f (ix2 ⟨a, ha⟩ ⟨b, hb⟩) := dif_pos ⟨ha, hb⟩

/-- The weight with the mask applied. -/
def masked (w mk : SW.Idx → EReal) : SW.Idx → EReal := fun j => w j * mk j

/-- Row `p` of `x` against row `q` of `wm` over the `k`-th block of 256 columns. -/
def blockDot (x : SX.Idx → EReal) (wm : SW.Idx → EReal) (p q k : ℕ) : EReal :=
  ∑ j ∈ Finset.range 256, at2 x p (256 * k + j) * at2 wm q (256 * k + j)

/-- A sum over `256 · n` consecutive naturals is the sum of its `n` blocks of 256. -/
theorem sum_blocks (f : ℕ → EReal) : ∀ n : ℕ,
    ∑ k ∈ Finset.range n, ∑ j ∈ Finset.range 256, f (256 * k + j) = ∑ i ∈ Finset.range (256 * n), f i
  | 0 => by simp
  | n + 1 => by rw [Finset.sum_range_succ, sum_blocks f n, Nat.mul_succ, Finset.sum_range_add]

/-- THE RESULT, index by index. -/
def linear (x : SX.Idx → EReal) (w mk : SW.Idx → EReal) (b : SB.Idx → EReal) : SX.Idx → EReal :=
  fun j => (∑ k : Fin 4096, x (ix2 (j 0) k) * (w (ix2 (j 1) k) * mk (ix2 (j 1) k))) + b (ix1 (j 1))

/-- The result at `(p, q)` as the 16 block sums plus the bias. -/
theorem linear_ix2 (x : SX.Idx → EReal) (w mk : SW.Idx → EReal) (b : SB.Idx → EReal) (p : Fin 8192) (q : Fin 4096) :
    linear x w mk b (ix2 p q)
      = (∑ k ∈ Finset.range 16, blockDot x (masked w mk) p.val q.val k) + b (ix1 q) := by
  show (∑ k : Fin 4096, x (ix2 p k) * (w (ix2 q k) * mk (ix2 q k))) + b (ix1 q) = _
  congr 1
  unfold blockDot
  rw [sum_blocks (fun i => at2 x p.val i * at2 (masked w mk) q.val i) 16, show (256 * 16 : ℕ) = 4096 from rfl,
    Finset.sum_range]
  refine Finset.sum_congr rfl fun k _ => ?_
  rw [at2_ix2 x p k, at2_ix2 (masked w mk) q k]
  rfl

end Cert.MaskedLinear

end
-- ==== Proof.Value.Entry.lean ====
/-
  At the ideal instance: the first region leaves in its result array the weight with the mask applied, entry
  by entry — each grid point writes back the product of the two input blocks it was handed, block `t` of each
  window is rows `512 t … 512 t + 511` of its array, and the eight blocks tile the array. So the second region
  finds: its left operand the argument `x` as launched, its right operand the masked weight, and its bias row
  the bias vector reshaped to one row.
-/
import proofs.«174054_j19868518711680_2_alg».proof.Proof.FrameIdeal.Run
import proofs.«174054_j19868518711680_2_alg».proof.Proof.Value.Pieces
import proofs.«174054_j19868518711680_2_alg».proof.Proof.Value.Payloads
import proofs.«174054_j19868518711680_2_alg».proof.Proof.Value.Spec
import Idealize.ShloMosaic.Lib.Pipeline.Value
import Idealize.ShloMosaic.Lib.StableHlo.Run

set_option maxRecDepth 16384

noncomputable section

namespace Cert.KernelIdeal.MM

open Cert.KernelIdeal Cert.KernelIdeal.Gen Cert.MaskedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The first region's index maps over its grid: every window's block at point `t` is row block `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weight with the mask applied, as the contents of the first region's result array. -/
abbrev wmOf (c : Dev nD) : Buf (Elt Ideal) ((c : Thread nD τ).loc main_v0) :=
  masked (m ((c : Thread nD τ).loc main_arg1) : S4096x4096.Idx → EReal) (m ((c : Thread nD τ).loc main_arg3) : S4096x4096.Idx → EReal)

/-- The weight window's block at point `t`, read at a block index `j`, is the weight at any array index `i` whose
    row is `512 t` plus `j`'s row and whose column is `j`'s. -/
theorem wblk0_apply (c : Dev nD) (t : Fin cfg0.N) (j : S512x4096.Idx) (i : S4096x4096.Idx)
    (h0 : (i 0).val = 512 * t.val + (j 0).val) (h1 : (i 1).val = (j 1).val) :
    (iblk0 (VR0 m) c 0 t : Vec Ideal S512x4096 .f32) j = (m ((c : Thread nD τ).loc main_arg1) : S4096x4096.Idx → EReal) i := by
  obtain ⟨e0, e1, -⟩ := idx0 t
  unfold iblk0
  rw [View.read_apply]
  show VR0 m c main_arg1 _ = m ((c : Thread nD τ).loc main_arg1) _
  refine congrArg _ (funext fun a => Fin.ext ?_)
  match a with
  | ⟨0, _⟩ => show win0_0.index t (0 : Fin 2) * 512 + 1 * (j 0).val = (i 0).val; omega
  | ⟨1, _⟩ => show win0_0.index t (1 : Fin 2) * 4096 + 1 * (j 1).val = (i 1).val; omega

/-- The same for the mask window. -/
theorem mblk0_apply (c : Dev nD) (t : Fin cfg0.N) (j : S512x4096.Idx) (i : S4096x4096.Idx)
    (h0 : (i 0).val = 512 * t.val + (j 0).val) (h1 : (i 1).val = (j 1).val) :
    (iblk0 (VR0 m) c 1 t : Vec Ideal S512x4096 .f32) j = (m ((c : Thread nD τ).loc main_arg3) : S4096x4096.Idx → EReal) i := by
  obtain ⟨-, -, e2, e3, -⟩ := idx0 t
  unfold iblk0
  rw [View.read_apply]
  show VR0 m c main_arg3 _ = m ((c : Thread nD τ).loc main_arg3) _
  refine congrArg _ (funext fun a => Fin.ext ?_)
  match a with
  | ⟨0, _⟩ => show win0_1.index t (0 : Fin 2) * 512 + 1 * (j 0).val = (i 0).val; omega
  | ⟨1, _⟩ => show win0_1.index t (1 : Fin 2) * 4096 + 1 * (j 1).val = (i 1).val; omega

/-- WHAT POINT `t` WRITES BACK is block `t` of the masked weight. -/
theorem flushed0_eq (c : Dev nD) (t : Fin cfg0.N) :
    (dat0 (VR0 m) c).flushed 2 t = ((cfg0.win 2).blk t).view.read (Elt Ideal) (wmOf m c) := by
  show (cfg0.win 2).cut (grid0.coords t) ((dat0 (VR0 m) c).after 2 t) = _
  rw [after0_2, prodBlock_eq]
  obtain ⟨-, -, -, -, e4, e5⟩ := idx0 t
  funext j
  show k0_pay1 (F := Ideal) (iblk0 (VR0 m) c 0 t) (iblk0 (VR0 m) c 1 t) j = _
  refine (pay0_apply _ _ j).trans ?_
  rw [View.read_apply]
  have h0 : ((((cfg0.win 2).blk t).view.emb j : S4096x4096.Idx) 0).val = 512 * t.val + (j 0).val := by
    show win0_2.index t (0 : Fin 2) * 512 + 1 * (j 0).val = _; omega
  have h1 : ((((cfg0.win 2).blk t).view.emb j : S4096x4096.Idx) 1).val = (j 1).val := by
    show win0_2.index t (1 : Fin 2) * 4096 + 1 * (j 1).val = _; omega
  rw [wblk0_apply m c t j _ h0 h1, mblk0_apply m c t j _ h0 h1]
  rfl

/-- An index of the result array is in point `t`'s block iff each coordinate is in the block's range. -/
theorem mem_blk0 (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v0).slice (win0_2.rect t)).set ↔ _
  rw [View.set_slice_whole, Rect.mem_set_unit]
  exact Iff.rfl

/-- THE FIRST REGION'S RESULT: the masked weight (row `p` lies in block `p / 512`). -/
theorem final0 (c : Dev nD) : (dat0 (VR0 m) c).arrAt 2 cfg0.N = wmOf m c :=
  (dat0 (VR0 m) c).arrAt_eq_of_cover 2 (wmOf m c) (fun t _ => flushed0_eq m c t) fun i => by
    have hi0 : (i 0).val < 4096 := (i 0).isLt
    have hi1 : (i 1).val < 4096 := (i 1).isLt
    have hN : cfg0.N = 8 := N_0
    obtain ⟨t, ht⟩ : ∃ t : Fin cfg0.N, t.val = (i 0).val / 512 := ⟨⟨(i 0).val / 512, by rw [hN]; omega⟩, rfl⟩
    obtain ⟨e0, e1, e2, e3, e4, e5⟩ := idx0 t
    refine ⟨t, flush0_2 t, ?_⟩
    rw [mem_blk0]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 4096 ≤ (i 1).val ∧ (i 1).val < win0_2.index t (1 : Fin 2) * 4096 + 4096; omega

/-! ## What the second region finds -/

theorem VR2_arg0 (c : Dev nD) : VR2 m c main_arg0 = m ((c : Thread nD τ).loc main_arg0) :=
  (StableHlo.after_of_writes_sub hostOps1 _ hostOps1_writes (by decide)).trans ((W1_of_ne m c main_arg0 (by decide)).trans rfl)

theorem VR2_v0 (c : Dev nD) : VR2 m c main_v0 = wmOf m c :=
  (StableHlo.after_of_writes_sub hostOps1 _ hostOps1_writes (by decide)).trans ((W1_arr m c 2).trans (final0 m c))

/-- The bias row the second region is handed, at column `o`: the bias vector's entry `o`. -/
theorem VR2_v1_apply (c : Dev nD) (o : Fin 4096) :
    (VR2 m c main_v1 : S1x4096.Idx → EReal) (ix2 (0 : Fin 1) o) = (m ((c : Thread nD τ).loc main_arg2) : S4096.Idx → EReal) (ix1 o) := by
  have e : (VR2 m c main_v1 : S1x4096.Idx → EReal)
      = shapeCast S1x4096 (W1 m c (Proc.devRef .tc main_arg2) : S4096.Idx → EReal) shapeCasts_S4096_S1x4096 := by
    show StableHlo.after hostOps1 (W1 m c) (Proc.devRef .tc main_v1) = _
    after_results
    rfl
  rw [e, shapeCast_a_1a_apply, W1_of_ne m c main_arg2 (by decide)]

end Cert.KernelIdeal.MM

end
-- ==== Proof.Value.Acc.lean ====
/-
  At the ideal instance, the second region's accumulator. Point `t` of its grid has coordinates
  (t / 16, 0, t % 16): the left window's block is rows `1024 (t / 16) …` and columns `256 (t % 16) …` of `x`, the
  right window's block is all rows and columns `256 (t % 16) …` of the masked weight, the bias window's block
  is the bias row. So one accumulation step at (r, o) adds the product of row `1024 (t / 16) + r` of `x` with
  row `o` of the masked weight over column block `t % 16`; by induction on the point, after point `t` the
  accumulator at (r, o) is the sum of those block products over the column blocks `0 … t % 16`; and the block
  the last step of a row block emits is the sum over all 16 column blocks plus the bias.
-/
import proofs.«174054_j19868518711680_2_alg».proof.Proof.Value.Entry

set_option maxRecDepth 16384

noncomputable section

namespace Cert.KernelIdeal.MM

open Cert.KernelIdeal Cert.KernelIdeal.Gen Cert.MaskedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The second region's index maps over its grid. -/
theorem idx1 : ∀ t : Fin cfg1.N, win1_0.index t (0 : Fin 2) = t.val / 16 ∧ win1_0.index t (1 : Fin 2) = t.val % 16
    ∧ win1_1.index t (0 : Fin 2) = 0 ∧ win1_1.index t (1 : Fin 2) = t.val % 16
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- The argument `x` and the masked weight, as plain functions of an index. -/
abbrev xOf (c : Dev nD) : SX.Idx → EReal := (m ((c : Thread nD τ).loc main_arg0) : S8192x4096.Idx → EReal)
abbrev bOf (c : Dev nD) : SB.Idx → EReal := (m ((c : Thread nD τ).loc main_arg2) : S4096.Idx → EReal)

/-- The left window's block at point `t`, at row `r` and column `j`. -/
theorem xblk_apply (c : Dev nD) (t : Fin cfg1.N) (r : Fin 1024) (j : Fin 256) :
    (iblk1 (VR2 m) c 0 t : Vec Ideal S1024x256 .f32) (ix2 r j)
      = at2 (xOf m c) (1024 * (t.val / 16) + r.val) (256 * (t.val % 16) + j.val) := by
  have hN : t.val < 128 := lt_of_lt_of_eq t.isLt (show cfg1.N = 128 from N_1)
  obtain ⟨e0, e1, -⟩ := idx1 t
  have hp : 1024 * (t.val / 16) + r.val < 8192 := by have := r.isLt; omega
  have hq : 256 * (t.val % 16) + j.val < 4096 := by have := j.isLt; omega
  rw [at2_of_lt (xOf m c) hp hq]
  unfold iblk1
  rw [View.read_apply]
  show VR2 m c main_arg0 _ = m ((c : Thread nD τ).loc main_arg0) _
  rw [VR2_arg0]
  refine congrArg _ (funext fun a => Fin.ext ?_)
  match a with
  | ⟨0, _⟩ => show win1_0.index t (0 : Fin 2) * 1024 + 1 * r.val = 1024 * (t.val / 16) + r.val; omega
  | ⟨1, _⟩ => show win1_0.index t (1 : Fin 2) * 256 + 1 * j.val = 256 * (t.val % 16) + j.val; omega

/-- The right window's block at point `t`, at row `o` and column `j`. -/
theorem wblk_apply (c : Dev nD) (t : Fin cfg1.N) (o : Fin 4096) (j : Fin 256) :
    (iblk1 (VR2 m) c 1 t : Vec Ideal S4096x256 .bf16) (ix2 o j)
      = at2 (wmOf m c) o.val (256 * (t.val % 16) + j.val) := by
  have hN : t.val < 128 := lt_of_lt_of_eq t.isLt (show cfg1.N = 128 from N_1)
  obtain ⟨-, -, e2, e3, -⟩ := idx1 t
  have hq : 256 * (t.val % 16) + j.val < 4096 := by have := j.isLt; omega
  rw [at2_of_lt (wmOf m c) o.isLt hq]
  unfold iblk1
  rw [View.read_apply]
  show VR2 m c main_v0 _ = wmOf m c _
  rw [VR2_v0]
  refine congrArg _ (funext fun a => Fin.ext ?_)
  match a with
  | ⟨0, _⟩ => show win1_1.index t (0 : Fin 2) * 4096 + 1 * o.val = o.val; omega
  | ⟨1, _⟩ => show win1_1.index t (1 : Fin 2) * 256 + 1 * j.val = 256 * (t.val % 16) + j.val; omega

/-- The bias window's block at any point, at column `o`. -/
theorem bblk_apply (c : Dev nD) (t : Fin cfg1.N) (o : Fin 4096) :
    (iblk1 (VR2 m) c 2 t : Vec Ideal S1x4096 .f32) (ix2 (0 : Fin 1) o) = bOf m c (ix1 o) := by
  obtain ⟨-, -, -, -, e4, e5, -⟩ := idx1 t
  refine Eq.trans ?_ (VR2_v1_apply m c o)
  unfold iblk1
  rw [View.read_apply]
  show VR2 m c main_v1 _ = VR2 m c main_v1 _
  refine congrArg _ (funext fun a => Fin.ext ?_)
  match a with
  | ⟨0, _⟩ => show win1_2.index t (0 : Fin 2) * 1 + 1 * 0 = 0; omega
  | ⟨1, _⟩ => show win1_2.index t (1 : Fin 2) * 4096 + 1 * o.val = o.val; omega

/-- One accumulation step at (r, o), for blocks whose row `r` resp. row `o` are known as stretches of 256
    consecutive entries of row `p` of `X` resp. row `q` of `WM` starting at column `256 k`: it adds the block
    product of those rows over column block `k`. -/
theorem step_block (x0 : Vec Ideal S1024x256 .f32) (x1 : Vec Ideal S4096x256 .bf16) (xs : Vec Ideal S1024x4096 .f32)
    (r : Fin 1024) (o : Fin 4096) (X : SX.Idx → EReal) (WM : SW.Idx → EReal) (p q k : ℕ)
    (hx0 : ∀ j : Fin 256, x0 (ix2 r j) = at2 X p (256 * k + j.val))
    (hx1 : ∀ j : Fin 256, x1 (ix2 o j) = at2 WM q (256 * k + j.val)) :
    k1_pay2 (F := Ideal) x0 x1 xs (ix2 r o) = xs (ix2 r o) + blockDot X WM p q k := by
  rw [step_apply]
  refine congrArg (xs (ix2 r o) + ·) ?_
  unfold blockDot
  rw [Finset.sum_range (fun j => at2 X p (256 * k + j) * at2 WM q (256 * k + j))]
  exact Finset.sum_congr rfl fun j _ => by rw [hx0, hx1]

/-- THE ACCUMULATOR after point `n`, at (r, o): the block products over the column blocks `0 … n % 16`. -/
theorem acc_value (c : Dev nD) : ∀ (n : ℕ) (hn : n < cfg1.N) (r : Fin 1024) (o : Fin 4096),
    accAt (VR2 m) c n hn (ix2 r o)
      = ∑ k ∈ Finset.range (n % 16 + 1), blockDot (xOf m c) (wmOf m c) (1024 * (n / 16) + r.val) o.val k := by
  intro n
  induction n with
  | zero =>
    intro hn r o
    have h := accAt_first (VR2 m) c ⟨0, hn⟩ (Nat.zero_mod _) (by show ¬(0 : ℕ) % 16 = 15; decide)
    rw [show accAt (VR2 m) c 0 hn = _ from h, soutFirst_eq, step_block _ _ _ r o (xOf m c) (wmOf m c) _ _ _ (fun j => xblk_apply m c ⟨0, hn⟩ r j) (fun j => wblk_apply m c ⟨0, hn⟩ o j), zero_apply, zero_add]
    show blockDot (xOf m c) (wmOf m c) (1024 * (0 / 16) + r.val) o.val (0 % 16) = _
    rw [show (0 : ℕ) % 16 + 1 = 1 from rfl, Finset.sum_range_one]
  | succ n ih =>
    intro hn r o
    have hN : n + 1 < 128 := lt_of_lt_of_eq hn N_1
    by_cases h0 : (n + 1) % 16 = 0
    · have h := accAt_first (VR2 m) c ⟨n + 1, hn⟩ h0 (by show ¬(n + 1) % 16 = 15; omega)
      rw [show accAt (VR2 m) c (n + 1) hn = _ from h, soutFirst_eq, step_block _ _ _ r o (xOf m c) (wmOf m c) _ _ _ (fun j => xblk_apply m c ⟨n + 1, hn⟩ r j) (fun j => wblk_apply m c ⟨n + 1, hn⟩ o j), zero_apply, zero_add]
      show blockDot (xOf m c) (wmOf m c) (1024 * ((n + 1) / 16) + r.val) o.val ((n + 1) % 16) = _
      rw [h0, Finset.sum_range_one]
    · have hq : (n + 1) / 16 = n / 16 := by omega
      have hs : (n + 1) % 16 = n % 16 + 1 := by omega
      have e := ih (Nat.lt_of_succ_lt hn) r o
      by_cases h2 : (n + 1) % 16 = 15
      · have h := accAt_last (VR2 m) c ⟨n + 1, hn⟩ h0 h2
        rw [show accAt (VR2 m) c (n + 1) hn = _ from h, soutLast_eq, step_block _ _ _ r o (xOf m c) (wmOf m c) _ _ _ (fun j => xblk_apply m c ⟨n + 1, hn⟩ r j) (fun j => wblk_apply m c ⟨n + 1, hn⟩ o j)]
        show accAt (VR2 m) c n _ (ix2 r o) + blockDot (xOf m c) (wmOf m c) (1024 * ((n + 1) / 16) + r.val) o.val ((n + 1) % 16) = _
        rw [e, hq, hs, Finset.sum_range_succ (fun k => blockDot (xOf m c) (wmOf m c) (1024 * (n / 16) + r.val) o.val k) (n % 16 + 1)]
      · have h := accAt_mid (VR2 m) c ⟨n + 1, hn⟩ h0 h2
        rw [show accAt (VR2 m) c (n + 1) hn = _ from h, soutMid_eq, step_block _ _ _ r o (xOf m c) (wmOf m c) _ _ _ (fun j => xblk_apply m c ⟨n + 1, hn⟩ r j) (fun j => wblk_apply m c ⟨n + 1, hn⟩ o j)]
        show accAt (VR2 m) c n _ (ix2 r o) + blockDot (xOf m c) (wmOf m c) (1024 * ((n + 1) / 16) + r.val) o.val ((n + 1) % 16) = _
        rw [e, hq, hs, Finset.sum_range_succ (fun k => blockDot (xOf m c) (wmOf m c) (1024 * (n / 16) + r.val) o.val k) (n % 16 + 1)]

/-- THE EMITTED BLOCK at the last step of a row block, at (r, o): all 16 block products plus the bias. -/
theorem emit_value (c : Dev nD) (t : Fin cfg1.N) (h2 : t.val % 16 = 15) (r : Fin 1024) (o : Fin 4096) :
    emitAt (VR2 m) c t (ix2 r o)
      = (∑ k ∈ Finset.range 16, blockDot (xOf m c) (wmOf m c) (1024 * (t.val / 16) + r.val) o.val k) + bOf m c (ix1 o) := by
  have h0 : ¬t.val % 16 = 0 := by omega
  have hN : t.val < 128 := lt_of_lt_of_eq t.isLt (show cfg1.N = 128 from N_1)
  rw [emitAt_last (VR2 m) c t h0 h2, outLast_eq, emit_apply, step_block _ _ _ r o (xOf m c) (wmOf m c) _ _ _ (fun j => xblk_apply m c t r j) (fun j => wblk_apply m c t o j), bblk_apply]
  rw [acc_value m c (t.val - 1) _ r o]
  have hq : (t.val - 1) / 16 = t.val / 16 := by omega
  have hs : (t.val - 1) % 16 + 1 = 15 := by omega
  rw [hq, hs, h2, ← Finset.sum_range_succ (fun k => blockDot (xOf m c) (wmOf m c) (1024 * (t.val / 16) + r.val) o.val k) 15]

end Cert.KernelIdeal.MM

end
-- ==== Proof.Value.Final.lean ====
/-
  At the ideal instance: the second region leaves in the program's result array the masked linear layer of the
  four arguments. The output window's block at point `t` is rows `1024 (t / 16) …` (all 4096 columns); the
  pipeline writes it back exactly at the last step of each row block, where the body has just stored the sum
  of all 16 block products plus the bias — which is the layer's value there, the 4096-column sum regrouped
  into its 16 blocks; and the eight written blocks tile the array. So the run ends with the result array at
  `linear x w mask b` and the arguments unchanged.
-/
import proofs.«174054_j19868518711680_2_alg».proof.Proof.Value.Acc

set_option maxRecDepth 16384

noncomputable section

namespace Cert.KernelIdeal.MM

open Cert.KernelIdeal Cert.KernelIdeal.Gen Cert.MaskedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- THE RESULT as a function of the launch memory. -/
abbrev resultOf (c : Dev nD) : Buf (Elt Ideal) ((c : Thread nD τ).loc main_v2) :=
  linear (xOf m c) (m ((c : Thread nD τ).loc main_arg1) : S4096x4096.Idx → EReal)
    (m ((c : Thread nD τ).loc main_arg3) : S4096x4096.Idx → EReal) (bOf m c)

/-- The emitted block at a block index `y` is the layer at the array index the block's view sends `y` to. -/
theorem emit_block (c : Dev nD) (t : Fin cfg1.N) (h2 : t.val % 16 = 15) (y : S1024x4096.Idx) (i : S8192x4096.Idx)
    (hi0 : (i 0).val = 1024 * (t.val / 16) + (y 0).val) (hi1 : (i 1).val = (y 1).val) :
    emitAt (VR2 m) c t y = resultOf m c i := by
  obtain ⟨r, o, rfl⟩ : ∃ (r : Fin 1024) (o : Fin 4096), y = ix2 r o := ⟨y 0, y 1, eq_ix2 y⟩
  obtain ⟨p, q, rfl⟩ : ∃ (p : Fin 8192) (q : Fin 4096), i = ix2 p q := ⟨i 0, i 1, eq_ix2 i⟩
  have hp : p.val = 1024 * (t.val / 16) + r.val := hi0
  have hq : q = o := Fin.ext hi1
  subst hq
  rw [emit_value m c t h2 r q]
  show _ = linear _ _ _ _ (ix2 p q)
  rw [linear_ix2, hp]

/-- WHAT A WRITING POINT WRITES BACK is its block of the result. -/
theorem flushed1_eq (c : Dev nD) (t : Fin cfg1.N) (hf : (cfg1.win 3).flush t = true) :
    (dat1 (VR2 m) c).flushed 3 t = ((cfg1.win 3).blk t).view.read (Elt Ideal) (resultOf m c) := by
  have h2 : t.val % 16 = 15 := (flush1_3 t).mp hf
  obtain ⟨-, -, -, -, -, -, e6, e7⟩ := idx1 t
  show (cfg1.win 3).cut (grid1.coords t) ((dat1 (VR2 m) c).after 3 t) = _
  rw [after1_3]
  funext y
  show emitAt (VR2 m) c t y = resultOf m c (((cfg1.win 3).blk t).view.emb y)
  refine emit_block m c t h2 y _ ?_ ?_
  · show win1_3.index t (0 : Fin 2) * 1024 + 1 * (y 0).val = 1024 * (t.val / 16) + (y 0).val; omega
  · show win1_3.index t (1 : Fin 2) * 4096 + 1 * (y 1).val = (y 1).val; omega

theorem mem_blk1 (t : Fin cfg1.N) (i : S8192x4096.Idx) :
    i ∈ ((cfg1.win 3).blk t).view.set ↔ ∀ a : Fin 2, win1_3.index t a * S1024x4096.size a ≤ (i a).val ∧ (i a).val < win1_3.index t a * S1024x4096.size a + S1024x4096.size a := by
  show i ∈ ((View.whole main_v2).slice (win1_3.rect t)).set ↔ _
  rw [View.set_slice_whole, Rect.mem_set_unit]
  exact Iff.rfl

/-- THE PROGRAM'S RESULT ARRAY after the run (row `p` is written at the last step of row block `p / 1024`). -/
theorem final1 (c : Dev nD) : (dat1 (VR2 m) c).arrAt 3 cfg1.N = resultOf m c :=
  (dat1 (VR2 m) c).arrAt_eq_of_cover 3 (resultOf m c) (flushed1_eq m c) fun i => by
    have hi0 : (i 0).val < 8192 := (i 0).isLt
    have hi1 : (i 1).val < 4096 := (i 1).isLt
    have hN : cfg1.N = 128 := N_1
    obtain ⟨t, ht⟩ : ∃ t : Fin cfg1.N, t.val = 16 * ((i 0).val / 1024) + 15 := ⟨⟨16 * ((i 0).val / 1024) + 15, by rw [hN]; omega⟩, rfl⟩
    obtain ⟨-, -, -, -, -, -, e6, e7⟩ := idx1 t
    refine ⟨t, (flush1_3 t).mpr (by omega), ?_⟩
    rw [mem_blk1]
    intro a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 4096 ≤ (i 1).val ∧ (i 1).val < win1_3.index t (1 : Fin 2) * 4096 + 4096; omega

/-- THE RUN, read: the result array at the masked linear layer of the launch arguments, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v2) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans ((W3_main_v2 m c).trans (final1 m c)),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.KernelIdeal.MM

end
-- ==== Proof.RefValue.lean ====
/-
  The reference's result is the masked linear layer: its five host operations — the weight times the mask, a
  `dot_general` contracting the second axis of `x` with the second axis of that product, the bias broadcast to a
  row and then to every row, and the sum — read at an index (p, q), are the sum over the 4096 columns of
  `x (p, k) · (w (q, k) · mask (q, k))` plus `b q`.
-/
import proofs.«174054_j19868518711680_2_alg».proof.Proof.Gen.ReferenceIdeal.Read
import proofs.«174054_j19868518711680_2_alg».proof.Proof.Value.Spec

noncomputable section

namespace Cert.ReferenceIdeal.RefValue

open Cert.ReferenceIdeal Cert.ReferenceIdeal.Gen Cert.ReferenceIdeal.Read Cert.MaskedLinear
open Idealize.ShloMosaic Idealize.ShloMosaic.ValueIdx

theorem ref_is_linear (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal)) :
    val_main_v4 (F := Ideal) x0 x1 x2 x3 = linear x0 x1 x3 x2 := by
  funext i
  have el : ∀ k, lidx_main_v1 i k = ix2 (i 0) k := fun k => funext fun a => Fin.ext (by
    match a with | ⟨0, _⟩ => rfl | ⟨1, _⟩ => rfl)
  have er : ∀ k, ridx_main_v1 i k = ix2 (i 1) k := fun k => funext fun a => Fin.ext (by
    match a with | ⟨0, _⟩ => rfl | ⟨1, _⟩ => rfl)
  have eb : idx_main_v2 (idx_main_v3 i) = ix1 (i 1) := funext fun a => Fin.ext (by
    match a with | ⟨0, _⟩ => rfl)
  rw [val_main_v4_apply, val_main_v1_apply, val_main_v3_apply, val_main_v2_apply, eb]
  simp only [val_main_v0_apply, el, er, Ideal.addf_def, Ideal.mulf_def]
  rfl

end Cert.ReferenceIdeal.RefValue

end
-- ==== Proof.lean ====
/-
  The masked linear layer `x · (w ∘ mask)ᵀ + b` (x : 8192 × 4096, w and mask : 4096 × 4096, b : 4096): a kernel
  program of two regions against its plain reference.

  The kernel program first writes the masked weight (w times mask, entry by entry, rounded to bf16) in 8 row
  blocks; then, over a grid of 8 row blocks of x times 16 blocks of 256 contracted columns, accumulates in a
  scratch buffer the products of the blocks of x with the blocks of the masked weight, starting each row block
  from zero, and at the last column block stores the accumulator plus the bias row. The reference multiplies
  the weight by the mask, contracts x against it over all 4096 columns at once, and adds the bias.

  The frames (Proof/FrameBits, Proof/FrameIdeal): each program runs to its end without a fault and leaves its
  arguments as launched — for the kernel program at both readings, from the two regions' body obligations and
  the host reshape between them; for the reference, from its run.

  The value claim, over the extended reals where a change of float format is the identity (Proof/Value): the
  first region's result array is w · mask entry by entry; after the k-th step of a row block the accumulator at
  (r, o) is the sum over the column blocks 0 … k of the block products; the stored block is the sum over all 16
  column blocks plus the bias, and that is the sum over all 4096 columns plus the bias — a finite sum regrouped
  into consecutive blocks, which needs only that addition is commutative and associative, so finiteness of the
  inputs is never used. The reference's term, read at an index, is the same sum (Proof/RefValue). Both runs end
  with the result array at that one function of the arguments.

  The idealization rewrote no operation, so there is nothing to preserve.
-/
import proofs.«174054_j19868518711680_2_alg».proof.Defs
import proofs.«174054_j19868518711680_2_alg».proof.Proof.Gen.Kernel
import proofs.«174054_j19868518711680_2_alg».proof.Proof.Gen.KernelIdeal
import proofs.«174054_j19868518711680_2_alg».proof.Proof.Gen.ReferenceIdeal
import proofs.«174054_j19868518711680_2_alg».proof.Proof.Gen.Pre_finite_inputs
import proofs.«174054_j19868518711680_2_alg».proof.Proof.Gen.ReferenceIdeal.Run
import proofs.«174054_j19868518711680_2_alg».proof.Proof.FrameBits.Run
import proofs.«174054_j19868518711680_2_alg».proof.Proof.Value.Final
import proofs.«174054_j19868518711680_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.MM.frame (F := Bits) m ρ

theorem frame_ki : Cert.frame_KernelIdeal := fun m ρ _ => Cert.KernelIdeal.MM.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the arguments, end with the result array at the masked linear layer
    of the arguments. -/
theorem algebraic : Cert.algebraic_KernelIdeal_ReferenceIdeal := by
  intro m ρ m' ρ' _ hagree
  refine ⟨fun c => Cert.KernelIdeal.MM.resultOf m c, Cert.KernelIdeal.MM.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
